-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S262144x128 : Shape := ⟨2, ![262144, 128]⟩
abbrev S128x64 : Shape := ⟨2, ![128, 64]⟩
abbrev S128 : Shape := ⟨1, ![128]⟩
abbrev S128x128 : Shape := ⟨2, ![128, 128]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S262144x128 : S_.BroadcastsInDim S262144x128 (![] : Fin 0 → Fin S262144x128.rank)
  reducesTo_S262144x128_S_d0_1 : S262144x128.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S128x64 .f32) (main_arg12 : FVec F S128 .f32) (main_arg13 : FVec F S128x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg11
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_v63 main_v67

def fn_part2 {F : FTy → Type} [FloatOps F] (main_arg7 : FVec F S128x64 .f32) (main_arg8 : FVec F S128 .f32) (main_arg9 : FVec F S128x128 .f32) (main_arg10 : FVec F S128 .f32) (main_arg11 : FVec F S128x64 .f32) (main_arg12 : FVec F S128 .f32) (main_arg13 : FVec F S128x128 .f32) (main_arg14 : FVec F S128 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_v48 main_v49 main_v50

def fn_part1 {F : FTy → Type} [FloatOps F] (main_arg4 : FVec F S128 .f32) (main_arg5 : FVec F S128x128 .f32) (main_arg6 : FVec F S128 .f32) (main_arg7 : FVec F S128x64 .f32) (main_arg8 : FVec F S128 .f32) (main_arg9 : FVec F S128x128 .f32) (main_arg10 : FVec F S128 .f32) (main_arg11 : FVec F S128x64 .f32) (main_arg12 : FVec F S128 .f32) (main_arg13 : FVec F S128x128 .f32) (main_arg14 : FVec F S128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S262144x64 .f32) (main_arg1 : FVec F S262144x128 .f32) (main_arg2 : FVec F S262144x128 .f32) (main_arg3 : FVec F S128x64 .f32) (main_arg4 : FVec F S128 .f32) (main_arg5 : FVec F S128x128 .f32) (main_arg6 : FVec F S128 .f32) (main_arg7 : FVec F S128x64 .f32) (main_arg8 : FVec F S128 .f32) (main_arg9 : FVec F S128x128 .f32) (main_arg10 : FVec F S128 .f32) (main_arg11 : FVec F S128x64 .f32) (main_arg12 : FVec F S128 .f32) (main_arg13 : FVec F S128x128 .f32) (main_arg14 : FVec F S128 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S262144x64 : Shape := ⟨2, ![262144, 64]⟩
abbrev S262144x128 : Shape := ⟨2, ![262144, 128]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64x384 : Shape := ⟨2, ![64, 384]⟩
abbrev S128x384 : Shape := ⟨2, ![128, 384]⟩
abbrev S384 : Shape := ⟨1, ![384]⟩
abbrev S1x384 : Shape := ⟨2, ![1, 384]⟩
abbrev S8192x64 : Shape := ⟨2, ![8192, 64]⟩
abbrev S8192x128 : Shape := ⟨2, ![8192, 128]⟩
abbrev S8192x384 : Shape := ⟨2, ![8192, 384]⟩
abbrev S1x128 : Shape := ⟨2, ![1, 128]⟩

abbrev nBuf : Space → Nat
  | .hbm => 29
  | .vmem => 14
  | .smem => 0
  | _ => 0

abbrev bufTy : (tb : Table) → Fin (tcTables nBuf tb) → BufTy
  | .hbm, ⟨0, _⟩ => ⟨S262144x64, .f32⟩
  | .hbm, ⟨1, _⟩ => ⟨S262144x128, .f32⟩
  | .hbm, ⟨2, _⟩ => ⟨S262144x128, .f32⟩
  | .hbm, ⟨3, _⟩ => ⟨S128x64, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S64x128, .f32⟩
  | .hbm, ⟨16, _⟩ => ⟨S64x128, .f32⟩
  | .hbm, ⟨17, _⟩ => ⟨S64x128, .f32⟩
  | .hbm, ⟨18, _⟩ => ⟨S64x384, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x384, .f32⟩
  | .hbm, ⟨23, _⟩ => ⟨S384, .f32⟩
  | .hbm, ⟨24, _⟩ => ⟨S1x384, .f32⟩
  | .hbm, ⟨25, _⟩ => ⟨S384, .f32⟩
  | .hbm, ⟨26, _⟩ => ⟨S1x384, .f32⟩
  | .hbm, ⟨27, _⟩ => ⟨S262144x128, .f32⟩
  | .hbm, ⟨28, _⟩ => ⟨S262144x128, .f32⟩
  | .local _ .vmem, ⟨0, _⟩ => ⟨S8192x64, .f32⟩
  | .local _ .vmem, ⟨1, _⟩ => ⟨S8192x64, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S64x384, .f32⟩
  | .local _ .vmem, ⟨7, _⟩ => ⟨S1x384, .f32⟩
  | .local _ .vmem, ⟨8, _⟩ => ⟨S128x384, .f32⟩
  | .local _ .vmem, ⟨9, _⟩ => ⟨S1x384, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S8192x128, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S128x64_S64x128_1_0 : S128x64.Transposes [1, 0] S64x128
  concatenates_S64x128_S64x128_S64x128_S64x384_d1 : Shape.Concatenates [S64x128, S64x128, S64x128] S64x384 1
  transposes_S128x128_S128x128_1_0 : S128x128.Transposes [1, 0] S128x128
  concatenates_S128x128_S128x128_S128x128_S128x384_d1 : Shape.Concatenates [S128x128, S128x128, S128x128] S128x384 1
  concatenates_S128_S128_S128_S384_d0 : Shape.Concatenates [S128, S128, S128] S384 0
  shapeCasts_S384_S1x384 : S384.ShapeCasts S1x384
  inb_S8192x64_S8192x64_0_0 : ∀ a, (![0, 0] : Fin 2 → Nat) a + S8192x64.size a ≤ S8192x64.size a
  h_S8192x64 : 0 < S8192x64.numel
  inb_S8192x128_S8192x128_0_0 : ∀ a, (![0, 0] : Fin 2 → Nat) a + S8192x128.size a ≤ S8192x128.size a
  h_S8192x128 : 0 < S8192x128.numel
  inb_S64x384_S64x384_0_0 : ∀ a, (![0, 0] : Fin 2 → Nat) a + S64x384.size a ≤ S64x384.size a
  h_S64x384 : 0 < S64x384.numel
  shapeCasts_S64x384_S64x384 : S64x384.ShapeCasts S64x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S8192x384 : S1x384.Broadcasts S8192x384
  slices_S8192x384_o0_0_S8192x128 : S8192x384.Slices ![0, 0] S8192x128
  slices_S8192x384_o0_128_S8192x128 : S8192x384.Slices ![0, 128] S8192x128
  slices_S8192x384_o0_256_S8192x128 : S8192x384.Slices ![0, 256] S8192x128
  slices_S128x384_o0_0_S128x128 : S128x384.Slices ![0, 0] S128x128
  slices_S1x384_o0_0_S1x128 : S1x384.Slices ![0, 0] S1x128
  broadcasts_S1x128_S8192x128 : S1x128.Broadcasts S8192x128
  dot_S8192x64_S64x384_S8192x384_1_0_0_1_n_n_wf : DotDims.WF S8192x64 S64x384 S8192x384 [1] [0] [0] [1] [] []
  dot_S8192x128_S128x384_S8192x384_1_0_0_1_n_n_wf : DotDims.WF S8192x128 S128x384 S8192x384 [1] [0] [0] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S262144x64.size a
  hwx0_0 : ∀ i : grid0.Coords, EltTy.bits .f32 = 32 ∨ (Rect.block (s := S262144x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S262144x128.size a
  hwx0_2 : ∀ i : grid0.Coords, EltTy.bits .f32 = 32 ∨ (Rect.block (s := S262144x128) S8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x384.size a ≤ S64x384.size a
  hwx0_3 : ∀ i : grid0.Coords, EltTy.bits .f32 = 32 ∨ (Rect.block (s := S64x384) S64x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x384.size a ≤ S128x384.size a
  hwx0_5 : ∀ i : grid0.Coords, EltTy.bits .f32 = 32 ∨ (Rect.block (s := S128x384) S128x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x128.size a ≤ S262144x128.size a
  hwx0_7 : ∀ i : grid0.Coords, EltTy.bits .f32 = 32 ∨ (Rect.block (s := S262144x128) S8192x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8192x128.size a ≤ S262144x128.size a
  hwx0_8 : ∀ i : grid0.Coords, EltTy.bits .f32 = 32 ∨ (Rect.block (s := S262144x128) S8192x128.size (cc0_transform_8 i) (hinb0_8 i)).WholeWords (EltTy.packing .f32)

variable [Facts₀]

def dot_S8192x64_S64x384_S8192x384_1_0_0_1_n_n : DotDims S8192x64 S64x384 S8192x384 where
  lhsContracting := [1]
  rhsContracting := [0]
  lhsNonContracting := [0]
  rhsNonContracting := [1]
  lhsBatch := []
  rhsBatch := []
  wf := dot_S8192x64_S64x384_S8192x384_1_0_0_1_n_n_wf
def dot_S8192x128_S128x384_S8192x384_1_0_0_1_n_n : DotDims S8192x128 S128x384 S8192x384 where
  lhsContracting := [1]
  rhsContracting := [0]
  lhsNonContracting := [0]
  rhsNonContracting := [1]
  lhsBatch := []
  rhsBatch := []
  wf := dot_S8192x128_S128x384_S8192x384_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S128x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12_0) S8192x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12_1) S8192x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x64 : Shape := ⟨2, ![262144, 64]⟩
abbrev S262144x128 : Shape := ⟨2, ![262144, 128]⟩
abbrev S128x64 : Shape := ⟨2, ![128, 64]⟩
abbrev S128 : Shape := ⟨1, ![128]⟩
abbrev S128x128 : Shape := ⟨2, ![128, 128]⟩
abbrev S1x128 : Shape := ⟨2, ![1, 128]⟩
abbrev S_ : Shape := ⟨0, ![]⟩

abbrev nBuf : Space → Nat
  | .hbm => 85
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S262144x128, .f32⟩
  | .hbm, ⟨2, _⟩ => ⟨S262144x128, .f32⟩
  | .hbm, ⟨3, _⟩ => ⟨S128x64, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S262144x128, .f32⟩
  | .hbm, ⟨16, _⟩ => ⟨S1x128, .f32⟩
  | .hbm, ⟨17, _⟩ => ⟨S262144x128, .f32⟩
  | .hbm, ⟨18, _⟩ => ⟨S262144x128, .f32⟩
  | .hbm, ⟨19, _⟩ => ⟨S262144x128, .f32⟩
  | .hbm, ⟨20, _⟩ => ⟨S1x128, .f32⟩
  | .hbm, ⟨21, _⟩ => ⟨S262144x128, .f32⟩
  | .hbm, ⟨22, _⟩ => ⟨S262144x128, .f32⟩
  | .hbm, ⟨23, _⟩ => ⟨S262144x128, .f32⟩
  | .hbm, ⟨24, _⟩ => ⟨S262144x128, .f32⟩
  | .hbm, ⟨25, _⟩ => ⟨S262144x128, .f32⟩
  | .hbm, ⟨26, _⟩ => ⟨S_, .f32⟩
  | .hbm, ⟨27, _⟩ => ⟨S262144x128, .f32⟩
  | .hbm, ⟨28, _⟩ => ⟨S262144x128, .f32⟩
  | .hbm, ⟨29, _⟩ => ⟨S_, .f32⟩
  | .hbm, ⟨30, _⟩ => ⟨S262144x128, .f32⟩
  | .hbm, ⟨31, _⟩ => ⟨S262144x128, .f32⟩
  | .hbm, ⟨32, _⟩ => ⟨S262144x128, .f32⟩
  | .hbm, ⟨33, _⟩ => ⟨S1x128, .f32⟩
  | .hbm, ⟨34, _⟩ => ⟨S262144x128, .f32⟩
  | .hbm, ⟨35, _⟩ => ⟨S262144x128, .f32⟩
  | .hbm, ⟨36, _⟩ => ⟨S262144x128, .f32⟩
  | .hbm, ⟨37, _⟩ => ⟨S1x128, .f32⟩
  | .hbm, ⟨38, _⟩ => ⟨S262144x128, .f32⟩
  | .hbm, ⟨39, _⟩ => ⟨S262144x128, .f32⟩
  | .hbm, ⟨40, _⟩ => ⟨S262144x128, .f32⟩
  | .hbm, ⟨41, _⟩ => ⟨S262144x128, .f32⟩
  | .hbm, ⟨42, _⟩ => ⟨S262144x128, .f32⟩
  | .hbm, ⟨43, _⟩ => ⟨S_, .f32⟩
  | .hbm, ⟨44, _⟩ => ⟨S262144x128, .f32⟩
  | .hbm, ⟨45, _⟩ => ⟨S262144x128, .f32⟩
  | .hbm, ⟨46, _⟩ => ⟨S_, .f32⟩
  | .hbm, ⟨47, _⟩ => ⟨S262144x128, .f32⟩
  | .hbm, ⟨48, _⟩ => ⟨S262144x128, .f32⟩
  | .hbm, ⟨49, _⟩ => ⟨S262144x128, .f32⟩
  | .hbm, ⟨50, _⟩ => ⟨S1x128, .f32⟩
  | .hbm, ⟨51, _⟩ => ⟨S262144x128, .f32⟩
  | .hbm, ⟨52, _⟩ => ⟨S262144x128, .f32⟩
  | .hbm, ⟨53, _⟩ => ⟨S262144x128, .f32⟩
  | .hbm, ⟨54, _⟩ => ⟨S1x128, .f32⟩
  | .hbm, ⟨55, _⟩ => ⟨S262144x128, .f32⟩
  | .hbm, ⟨56, _⟩ => ⟨S262144x128, .f32⟩
  | .hbm, ⟨57, _⟩ => ⟨S262144x128, .f32⟩
  | .hbm, ⟨58, _⟩ => ⟨S262144x128, .f32⟩
  | .hbm, ⟨59, _⟩ => ⟨S262144x128, .f32⟩
  | .hbm, ⟨60, _⟩ => ⟨S_, .f32⟩
  | .hbm, ⟨61, _⟩ => ⟨S262144x128, .f32⟩
  | .hbm, ⟨62, _⟩ => ⟨S262144x128, .f32⟩
  | .hbm, ⟨63, _⟩ => ⟨S_, .f32⟩
  | .hbm, ⟨64, _⟩ => ⟨S262144x128, .f32⟩
  | .hbm, ⟨65, _⟩ => ⟨S262144x128, .f32⟩
  | .hbm, ⟨66, _⟩ => ⟨S262144x128, .f32⟩
  | .hbm, ⟨67, _⟩ => ⟨S262144x128, .f32⟩
  | .hbm, ⟨68, _⟩ => ⟨S1x128, .f32⟩
  | .hbm, ⟨69, _⟩ => ⟨S262144x128, .f32⟩
  | .hbm, ⟨70, _⟩ => ⟨S262144x128, .f32⟩
  | .hbm, ⟨71, _⟩ => ⟨S262144x128, .f32⟩
  | .hbm, ⟨72, _⟩ => ⟨S262144x128, .f32⟩
  | .hbm, ⟨73, _⟩ => ⟨S262144x128, .f32⟩
  | .hbm, ⟨74, _⟩ => ⟨S_, .f32⟩
  | .hbm, ⟨75, _⟩ => ⟨S262144x128, .f32⟩
  | .hbm, ⟨76, _⟩ => ⟨S262144x128, .f32⟩
  | .hbm, ⟨77, _⟩ => ⟨S_, .f32⟩
  | .hbm, ⟨78, _⟩ => ⟨S262144x128, .f32⟩
  | .hbm, ⟨79, _⟩ => ⟨S262144x128, .f32⟩
  | .hbm, ⟨80, _⟩ => ⟨S262144x128, .f32⟩
  | .hbm, ⟨81, _⟩ => ⟨S262144x128, .f32⟩
  | .hbm, ⟨82, _⟩ => ⟨S262144x128, .f32⟩
  | .hbm, ⟨83, _⟩ => ⟨S262144x128, .f32⟩
  | .hbm, ⟨84, _⟩ => ⟨S262144x128, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_1 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_3 : Ref sig .tc := ⟨.hbm, 60, rfl⟩
abbrev main_v41 : Ref sig .tc := ⟨.hbm, 61, rfl⟩
abbrev main_v42 : Ref sig .tc := ⟨.hbm, 62, rfl⟩
abbrev main_cst_4 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_5 : Ref sig .tc := ⟨.hbm, 74, rfl⟩
abbrev main_v53 : Ref sig .tc := ⟨.hbm, 75, rfl⟩
abbrev main_v54 : Ref sig .tc := ⟨.hbm, 76, rfl⟩
abbrev main_cst_6 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  dot_S262144x64_S128x64_S262144x128_1_1_0_0_n_n_wf : DotDims.WF S262144x64 S128x64 S262144x128 [1] [1] [0] [0] [] []
  dot_S262144x128_S128x128_S262144x128_1_1_0_0_n_n_wf : DotDims.WF S262144x128 S128x128 S262144x128 [1] [1] [0] [0] [] []

variable [Facts₀]

def dot_S262144x64_S128x64_S262144x128_1_1_0_0_n_n : DotDims S262144x64 S128x64 S262144x128 where
  lhsContracting := [1]
  rhsContracting := [1]
  lhsNonContracting := [0]
  rhsNonContracting := [0]
  lhsBatch := []
  rhsBatch := []
  wf := dot_S262144x64_S128x64_S262144x128_1_1_0_0_n_n_wf
def dot_S262144x128_S128x128_S262144x128_1_1_0_0_n_n : DotDims S262144x128 S128x128 S262144x128 where
  lhsContracting := [1]
  rhsContracting := [1]
  lhsNonContracting := [0]
  rhsNonContracting := [0]
  lhsBatch := []
  rhsBatch := []
  wf := dot_S262144x128_S128x128_S262144x128_1_1_0_0_n_n_wf

class Facts : Prop extends Facts₀ where

variable [Facts]
-- ==== Proof.RegionBits.lean ====
/-
  The frame of `Kernel`: the program runs to its end, faults nowhere and leaves its argument arrays as it found them.

  @main is twelve host operations and then one region. The host operations build, out of the weight and bias
  arguments, four arrays the region reads: the three input-side weights transposed and joined along the lanes
  ([64, 384]), the three hidden-side weights likewise ([128, 384]), and the two bias triples joined and cast to one
  row ([1, 384]). None of them writes an argument. The region walks 32 grid points; at point `t` the body is handed
  rows 8192·t … 8192·t + 8191 of the three batch arrays and the four built arrays whole, loads all seven, and stores
  two whole [8192, 128] blocks: the new memory and the new hidden state of those rows. So what the body leaves in each
  output buffer is one function of the seven loaded blocks (`newMemory`, `newHidden`), the inputs' buffers stay as they
  were, and the launch theorem for such a body gives the run.
-/
import proofs.«100270_j17600775979868_2_alg».proof.Proof.Gen.Kernel.Launch
import proofs.«100270_j17600775979868_2_alg».proof.Proof.Gen.Kernel.Skeleton
import proofs.«100270_j17600775979868_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory after the twelve host operations. -/
abbrev atEntry (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations and then the region. -/
theorem mainUpToRegion (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- The twelve buffers the host operations write. -/
abbrev built : List (Ref sig .tc) :=
  [main_v0, main_v1, main_v2, main_v3, main_v4, main_v5, main_v6, main_v7, main_v8, main_v9, main_v10, main_v11]

/-- A buffer that is none of the twelve is found by the region as launched. -/
theorem atEntry_of_not_built (c : Dev nD) (b : Ref sig .tc) (hb : ∀ y ∈ built, b ≠ y) :
    atEntry m c b = m ((c : Thread nD τ).loc b) :=
  StableHlo.after_of_forall_not_mem (b := Proc.devRef .tc b) _ _ (List.forall_iff_forall_mem.mp (by
    simp only [hostOps0, List.Forall, StableHlo.unary_writes, StableHlo.nary_writes, StableHlo.reshape_writes,
      Finset.mem_singleton]
    refine ⟨?_, ?_, ?_, ?_, ?_, ?_, ?_, ?_, ?_, ?_, ?_, ?_⟩
    all_goals exact StableHlo.devRef_ne_of_ne (hb _ (by simp [built]))))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block at every point, fetched there or not (a window that is
    not fetched at a point has not moved since the point before), for any proof data whose array is the region-entry
    contents and whose body leaves the block in place. One statement per input window: a block's index type is read off
    the window's literal. -/
theorem found0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem found4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem found5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem found6_of {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the two output buffers -/

abbrev rX : Rect S8192x64 := Rect.unit (s := S8192x64) ![0, 0] S8192x64.size inb_S8192x64_S8192x64_0_0
abbrev rH : Rect S8192x128 := Rect.unit (s := S8192x128) ![0, 0] S8192x128.size inb_S8192x128_S8192x128_0_0
abbrev rW : Rect S64x384 := Rect.unit (s := S64x384) ![0, 0] S64x384.size inb_S64x384_S64x384_0_0
abbrev rV : Rect S128x384 := Rect.unit (s := S128x384) ![0, 0] S128x384.size inb_S128x384_S128x384_0_0
abbrev rB : Rect S1x384 := Rect.unit (s := S1x384) ![0, 0] S1x384.size inb_S1x384_S1x384_0_0

/-- The new memory of the block's rows, from the seven loaded blocks: the one store into the first output buffer. -/
def newMemory (x : Vec F S8192x64 .f32) (h c : Vec F S8192x128 .f32) (w : Vec F S64x384 .f32) (wb : Vec F S1x384 .f32)
    (v : Vec F S128x384 .f32) (vb : Vec F S1x384 .f32) : Vec F S8192x128 .f32 :=
  View.canon [⟨rH, k0_pay5 (View.ld x rX) (View.ld h rH) (View.ld c rH) (View.ld w rW) (View.ld v rV) (View.ld wb rB) (View.ld vb rB)⟩]

/-- The new hidden state of the block's rows: the one store into the second output buffer. -/
def newHidden (x : Vec F S8192x64 .f32) (h c : Vec F S8192x128 .f32) (w : Vec F S64x384 .f32) (wb : Vec F S1x384 .f32)
    (v : Vec F S128x384 .f32) (vb : Vec F S1x384 .f32) : Vec F S8192x128 .f32 :=
  View.canon [⟨rH, k0_pay6 (View.ld x rX) (View.ld h rH) (View.ld c rH) (View.ld w rW) (View.ld v rV) (View.ld wb rB) (View.ld vb rB)⟩]

/-- One store through the whole-buffer rectangle covers the buffer. -/
theorem wholeStore_covers (p0 : Vec F S8192x128 .f32) (y : S8192x128.Idx) :
    ∃ pc ∈ ([⟨rH, p0⟩] : List (View.Piece (Elt F) S8192x128 .f32)), y ∈ pc.1.set :=
  View.cover_of_tiled [⟨rH, p0⟩] S8192x128.size (by rfl) y

/-! ## The body's triple -/

set_option maxHeartbeats 1000000 in
/-- The body on whole staging buffers, the seven inputs' at read contents and the two outputs' at anything, runs to the
    continuation holding the inputs' as they were and the outputs' at `newMemory` and `newHidden` of the inputs'. -/
theorem body_runs (c : Dev nD) (E : Set ℕ) (i : grid0.Coords)
    (arg1 : Memref sig .tc .vmem S8192x64 .f32) (harg1 : arg1.IsWhole) (arg2 : Memref sig .tc .vmem S8192x128 .f32) (harg2 : arg2.IsWhole)
    (arg3 : Memref sig .tc .vmem S8192x128 .f32) (harg3 : arg3.IsWhole) (arg4 : Memref sig .tc .vmem S64x384 .f32) (harg4 : arg4.IsWhole)
    (arg5 : Memref sig .tc .vmem S1x384 .f32) (harg5 : arg5.IsWhole) (arg6 : Memref sig .tc .vmem S128x384 .f32) (harg6 : arg6.IsWhole)
    (arg7 : Memref sig .tc .vmem S1x384 .f32) (harg7 : arg7.IsWhole) (arg8 : Memref sig .tc .vmem S8192x128 .f32) (harg8 : arg8.IsWhole)
    (arg9 : Memref sig .tc .vmem S8192x128 .f32) (harg9 : arg9.IsWhole)
    (x0 : Vec F S8192x64 .f32) (x1 x2 : Vec F S8192x128 .f32) (x3 : Vec F S64x384 .f32) (x4 : Vec F S1x384 .f32)
    (x5 : Vec F S128x384 .f32) (x6 : Vec F S1x384 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (newMemory x0 x1 x2 x3 x4 x5 x6)
            ∗ owns (c : Thread nD τ) arg9 fullShare (newHidden x0 x1 x2 x3 x4 x5 x6)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8 arg9 harg9) K := by
  simp only [cc0__lstm_kernel_eq_skeleton]; unfold cc0__lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (wholeStore_covers _)
  iexists _; isplitr
  swap; · iexact H8
  ipureintro
  exact View.read_writes_eq_canon _ _ _ (wholeStore_covers _)

/-! ## The pipeline's proof data -/

/-- The proof data of the pipeline on core `c`: the arrays as the region finds them; after the body at point `t` each
    input's buffer at its block and the two outputs' at `newMemory`, `newHidden` of the seven input blocks; the region
    keeps nothing of its own between points. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => newMemory (blockAt m c 0 t) (blockAt m c 1 t) (blockAt m c 2 t) (blockAt m c 3 t) (blockAt m c 4 t) (blockAt m c 5 t) (blockAt m c 6 t)
    | ⟨8, _⟩ => newHidden (blockAt m c 0 t) (blockAt m c 1 t) (blockAt m c 2 t) (blockAt m c 3 t) (blockAt m c 4 t) (blockAt m c 5 t) (blockAt m c 6 t)
  Φ _ := Pipeline.ΦA spec0 c
  q _ := fullShare
  owed _ := 0

theorem A_eq (c : Dev nD) (w : Fin cfg0.W) : (dats m 0 c).A w = atEntry m c (Pipeline.arrRef spec0 w) := by
  dsimp only [dats]

theorem after_in0 (c : Dev nD) (t : Fin cfg0.N) : (dats m 0 c).after 0 t = blockAt m c 0 t := by dsimp only [dats]
theorem after_in1 (c : Dev nD) (t : Fin cfg0.N) : (dats m 0 c).after 1 t = blockAt m c 1 t := by dsimp only [dats]
theorem after_in2 (c : Dev nD) (t : Fin cfg0.N) : (dats m 0 c).after 2 t = blockAt m c 2 t := by dsimp only [dats]
theorem after_in3 (c : Dev nD) (t : Fin cfg0.N) : (dats m 0 c).after 3 t = blockAt m c 3 t := by dsimp only [dats]
theorem after_in4 (c : Dev nD) (t : Fin cfg0.N) : (dats m 0 c).after 4 t = blockAt m c 4 t := by dsimp only [dats]
theorem after_in5 (c : Dev nD) (t : Fin cfg0.N) : (dats m 0 c).after 5 t = blockAt m c 5 t := by dsimp only [dats]
theorem after_in6 (c : Dev nD) (t : Fin cfg0.N) : (dats m 0 c).after 6 t = blockAt m c 6 t := by dsimp only [dats]
theorem after_memory (c : Dev nD) (t : Fin cfg0.N) : (dats m 0 c).after 7 t
    = newMemory (blockAt m c 0 t) (blockAt m c 1 t) (blockAt m c 2 t) (blockAt m c 3 t) (blockAt m c 4 t) (blockAt m c 5 t) (blockAt m c 6 t) := by
  dsimp only [dats]
theorem after_hidden (c : Dev nD) (t : Fin cfg0.N) : (dats m 0 c).after 8 t
    = newHidden (blockAt m c 0 t) (blockAt m c 1 t) (blockAt m c 2 t) (blockAt m c 3 t) (blockAt m c 4 t) (blockAt m c 5 t) (blockAt m c 6 t) := by
  dsimp only [dats]

theorem found0 (c : Dev nD) (t : Fin cfg0.N) (d) : (dats m 0 c).before 0 t d = blockAt m c 0 t :=
  found0_of m (dats m 0 c) (A_eq m c 0) (after_in0 m c) t d
theorem found1 (c : Dev nD) (t : Fin cfg0.N) (d) : (dats m 0 c).before 1 t d = blockAt m c 1 t :=
  found1_of m (dats m 0 c) (A_eq m c 1) (after_in1 m c) t d
theorem found2 (c : Dev nD) (t : Fin cfg0.N) (d) : (dats m 0 c).before 2 t d = blockAt m c 2 t :=
  found2_of m (dats m 0 c) (A_eq m c 2) (after_in2 m c) t d
theorem found3 (c : Dev nD) (t : Fin cfg0.N) (d) : (dats m 0 c).before 3 t d = blockAt m c 3 t :=
  found3_of m (dats m 0 c) (A_eq m c 3) (after_in3 m c) t d
theorem found4 (c : Dev nD) (t : Fin cfg0.N) (d) : (dats m 0 c).before 4 t d = blockAt m c 4 t :=
  found4_of m (dats m 0 c) (A_eq m c 4) (after_in4 m c) t d
theorem found5 (c : Dev nD) (t : Fin cfg0.N) (d) : (dats m 0 c).before 5 t d = blockAt m c 5 t :=
  found5_of m (dats m 0 c) (A_eq m c 5) (after_in5 m c) t d
theorem found6 (c : Dev nD) (t : Fin cfg0.N) (d) : (dats m 0 c).before 6 t d = blockAt m c 6 t :=
  found6_of m (dats m 0 c) (A_eq m c 6) (after_in6 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so `body_runs` applies; what the region keeps and
    the core's dues pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_memory, after_hidden]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_runs c Set.univ (grid0.coords t) _ _ _ _ _ _ _ _ _ _ _ _ _ _ _ _ _ _
    (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of @main terminates, and every final state has every
    array of the pipeline at what the library computes from the proof data and every other unscoped buffer as the region
    found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := mainUpToRegion m Variants.none) (hA := A_eq m) (hΦ := fun _ _ => rfl)

/-- The three batch arrays are staged inputs: the library keeps an input array as the region found it, and the region
    found it as launched. -/
theorem kept_staged (r : PUnit × MemSt nD τ sig (Elt F)) (h : Pipeline.FramePost cfgs (dats m) 0 (atEntry m) r) (c : Dev nD)
    (w : Fin cfg0.W) (hw : (cfg0.win w).isOut = false) (hb : ∀ y ∈ built, Pipeline.arrRef spec0 w ≠ y) :
    r.2.mem (((cfgs 0).spec w).arr.view.loc (c.tc : Thread nD τ)) = m ((c.tc : Thread nD τ).loc (Pipeline.arrRef spec0 w)) :=
  ((h c).1 w).trans (((dats m 0 c).arrAt_in w hw _).trans ((A_eq m c w).trans (atEntry_of_not_built m c _ hb)))

/-- The twelve weight and bias arguments are no window's array: the region leaves them as it found them, as launched. -/
theorem kept_unstaged (r : PUnit × MemSt nD τ sig (Elt F)) (h : Pipeline.FramePost cfgs (dats m) 0 (atEntry m) r) (c : Dev nD)
    (b : Ref sig .tc) (hs : b.isScoped = false) (ha : ∀ w, (spec0 w).arr.view.ref ≠ b) (hb : ∀ y ∈ built, b ≠ y) :
    r.2.mem ((c.tc : Thread nD τ).loc b) = m ((c.tc : Thread nD τ).loc b) :=
  ((h c).2 b (Pipeline.mem_restRefs_of b hs ha)).trans (atEntry_of_not_built m c b hb)

/-- The frame: the program ends, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨kept_staged m r h c 0 rfl (by decide), kept_staged m r h c 1 rfl (by decide),
      kept_staged m r h c 2 rfl (by decide),
      kept_unstaged m r h c main_arg3 (by decide) (by decide) (by decide), kept_unstaged m r h c main_arg4 (by decide) (by decide) (by decide),
      kept_unstaged m r h c main_arg5 (by decide) (by decide) (by decide), kept_unstaged m r h c main_arg6 (by decide) (by decide) (by decide),
      kept_unstaged m r h c main_arg7 (by decide) (by decide) (by decide), kept_unstaged m r h c main_arg8 (by decide) (by decide) (by decide),
      kept_unstaged m r h c main_arg9 (by decide) (by decide) (by decide), kept_unstaged m r h c main_arg10 (by decide) (by decide) (by decide),
      kept_unstaged m r h c main_arg11 (by decide) (by decide) (by decide), kept_unstaged m r h c main_arg12 (by decide) (by decide) (by decide),
      kept_unstaged m r h c main_arg13 (by decide) (by decide) (by decide), kept_unstaged m r h c main_arg14 (by decide) (by decide) (by decide)⟩)
    (run_main m ρ)

end Cert.Kernel.Region

end
-- ==== Proof.RegionIdeal.lean ====
/-
  The frame of `KernelIdeal`: the program runs to its end, faults nowhere and leaves its argument arrays as it found them.

  @main is twelve host operations and then one region. The host operations build, out of the weight and bias
  arguments, four arrays the region reads: the three input-side weights transposed and joined along the lanes
  ([64, 384]), the three hidden-side weights likewise ([128, 384]), and the two bias triples joined and cast to one
  row ([1, 384]). None of them writes an argument. The region walks 32 grid points; at point `t` the body is handed
  rows 8192·t … 8192·t + 8191 of the three batch arrays and the four built arrays whole, loads all seven, and stores
  two whole [8192, 128] blocks: the new memory and the new hidden state of those rows. So what the body leaves in each
  output buffer is one function of the seven loaded blocks (`newMemory`, `newHidden`), the inputs' buffers stay as they
  were, and the launch theorem for such a body gives the run.
-/
import proofs.«100270_j17600775979868_2_alg».proof.Proof.Gen.KernelIdeal.Launch
import proofs.«100270_j17600775979868_2_alg».proof.Proof.Gen.KernelIdeal.Skeleton
import proofs.«100270_j17600775979868_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory after the twelve host operations. -/
abbrev atEntry (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations and then the region. -/
theorem mainUpToRegion (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- The twelve buffers the host operations write. -/
abbrev built : List (Ref sig .tc) :=
  [main_v0, main_v1, main_v2, main_v3, main_v4, main_v5, main_v6, main_v7, main_v8, main_v9, main_v10, main_v11]

/-- A buffer that is none of the twelve is found by the region as launched. -/
theorem atEntry_of_not_built (c : Dev nD) (b : Ref sig .tc) (hb : ∀ y ∈ built, b ≠ y) :
    atEntry m c b = m ((c : Thread nD τ).loc b) :=
  StableHlo.after_of_forall_not_mem (b := Proc.devRef .tc b) _ _ (List.forall_iff_forall_mem.mp (by
    simp only [hostOps0, List.Forall, StableHlo.unary_writes, StableHlo.nary_writes, StableHlo.reshape_writes,
      Finset.mem_singleton]
    refine ⟨?_, ?_, ?_, ?_, ?_, ?_, ?_, ?_, ?_, ?_, ?_, ?_⟩
    all_goals exact StableHlo.devRef_ne_of_ne (hb _ (by simp [built]))))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block at every point, fetched there or not (a window that is
    not fetched at a point has not moved since the point before), for any proof data whose array is the region-entry
    contents and whose body leaves the block in place. One statement per input window: a block's index type is read off
    the window's literal. -/
theorem found0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem found4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem found5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem found6_of {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the two output buffers -/

abbrev rX : Rect S8192x64 := Rect.unit (s := S8192x64) ![0, 0] S8192x64.size inb_S8192x64_S8192x64_0_0
abbrev rH : Rect S8192x128 := Rect.unit (s := S8192x128) ![0, 0] S8192x128.size inb_S8192x128_S8192x128_0_0
abbrev rW : Rect S64x384 := Rect.unit (s := S64x384) ![0, 0] S64x384.size inb_S64x384_S64x384_0_0
abbrev rV : Rect S128x384 := Rect.unit (s := S128x384) ![0, 0] S128x384.size inb_S128x384_S128x384_0_0
abbrev rB : Rect S1x384 := Rect.unit (s := S1x384) ![0, 0] S1x384.size inb_S1x384_S1x384_0_0

/-- The new memory of the block's rows, from the seven loaded blocks: the one store into the first output buffer. -/
def newMemory (x : Vec F S8192x64 .f32) (h c : Vec F S8192x128 .f32) (w : Vec F S64x384 .f32) (wb : Vec F S1x384 .f32)
    (v : Vec F S128x384 .f32) (vb : Vec F S1x384 .f32) : Vec F S8192x128 .f32 :=
  View.canon [⟨rH, k0_pay5 (View.ld x rX) (View.ld h rH) (View.ld c rH) (View.ld w rW) (View.ld v rV) (View.ld wb rB) (View.ld vb rB)⟩]

/-- The new hidden state of the block's rows: the one store into the second output buffer. -/
def newHidden (x : Vec F S8192x64 .f32) (h c : Vec F S8192x128 .f32) (w : Vec F S64x384 .f32) (wb : Vec F S1x384 .f32)
    (v : Vec F S128x384 .f32) (vb : Vec F S1x384 .f32) : Vec F S8192x128 .f32 :=
  View.canon [⟨rH, k0_pay6 (View.ld x rX) (View.ld h rH) (View.ld c rH) (View.ld w rW) (View.ld v rV) (View.ld wb rB) (View.ld vb rB)⟩]

/-- One store through the whole-buffer rectangle covers the buffer. -/
theorem wholeStore_covers (p0 : Vec F S8192x128 .f32) (y : S8192x128.Idx) :
    ∃ pc ∈ ([⟨rH, p0⟩] : List (View.Piece (Elt F) S8192x128 .f32)), y ∈ pc.1.set :=
  View.cover_of_tiled [⟨rH, p0⟩] S8192x128.size (by rfl) y

/-! ## The body's triple -/

set_option maxHeartbeats 1000000 in
/-- The body on whole staging buffers, the seven inputs' at read contents and the two outputs' at anything, runs to the
    continuation holding the inputs' as they were and the outputs' at `newMemory` and `newHidden` of the inputs'. -/
theorem body_runs (c : Dev nD) (E : Set ℕ) (i : grid0.Coords)
    (arg1 : Memref sig .tc .vmem S8192x64 .f32) (harg1 : arg1.IsWhole) (arg2 : Memref sig .tc .vmem S8192x128 .f32) (harg2 : arg2.IsWhole)
    (arg3 : Memref sig .tc .vmem S8192x128 .f32) (harg3 : arg3.IsWhole) (arg4 : Memref sig .tc .vmem S64x384 .f32) (harg4 : arg4.IsWhole)
    (arg5 : Memref sig .tc .vmem S1x384 .f32) (harg5 : arg5.IsWhole) (arg6 : Memref sig .tc .vmem S128x384 .f32) (harg6 : arg6.IsWhole)
    (arg7 : Memref sig .tc .vmem S1x384 .f32) (harg7 : arg7.IsWhole) (arg8 : Memref sig .tc .vmem S8192x128 .f32) (harg8 : arg8.IsWhole)
    (arg9 : Memref sig .tc .vmem S8192x128 .f32) (harg9 : arg9.IsWhole)
    (x0 : Vec F S8192x64 .f32) (x1 x2 : Vec F S8192x128 .f32) (x3 : Vec F S64x384 .f32) (x4 : Vec F S1x384 .f32)
    (x5 : Vec F S128x384 .f32) (x6 : Vec F S1x384 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (newMemory x0 x1 x2 x3 x4 x5 x6)
            ∗ owns (c : Thread nD τ) arg9 fullShare (newHidden x0 x1 x2 x3 x4 x5 x6)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8 arg9 harg9) K := by
  simp only [cc0__lstm_kernel_eq_skeleton]; unfold cc0__lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (wholeStore_covers _)
  iexists _; isplitr
  swap; · iexact H8
  ipureintro
  exact View.read_writes_eq_canon _ _ _ (wholeStore_covers _)

/-! ## The pipeline's proof data -/

/-- The proof data of the pipeline on core `c`: the arrays as the region finds them; after the body at point `t` each
    input's buffer at its block and the two outputs' at `newMemory`, `newHidden` of the seven input blocks; the region
    keeps nothing of its own between points. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => newMemory (blockAt m c 0 t) (blockAt m c 1 t) (blockAt m c 2 t) (blockAt m c 3 t) (blockAt m c 4 t) (blockAt m c 5 t) (blockAt m c 6 t)
    | ⟨8, _⟩ => newHidden (blockAt m c 0 t) (blockAt m c 1 t) (blockAt m c 2 t) (blockAt m c 3 t) (blockAt m c 4 t) (blockAt m c 5 t) (blockAt m c 6 t)
  Φ _ := Pipeline.ΦA spec0 c
  q _ := fullShare
  owed _ := 0

theorem A_eq (c : Dev nD) (w : Fin cfg0.W) : (dats m 0 c).A w = atEntry m c (Pipeline.arrRef spec0 w) := by
  dsimp only [dats]

theorem after_in0 (c : Dev nD) (t : Fin cfg0.N) : (dats m 0 c).after 0 t = blockAt m c 0 t := by dsimp only [dats]
theorem after_in1 (c : Dev nD) (t : Fin cfg0.N) : (dats m 0 c).after 1 t = blockAt m c 1 t := by dsimp only [dats]
theorem after_in2 (c : Dev nD) (t : Fin cfg0.N) : (dats m 0 c).after 2 t = blockAt m c 2 t := by dsimp only [dats]
theorem after_in3 (c : Dev nD) (t : Fin cfg0.N) : (dats m 0 c).after 3 t = blockAt m c 3 t := by dsimp only [dats]
theorem after_in4 (c : Dev nD) (t : Fin cfg0.N) : (dats m 0 c).after 4 t = blockAt m c 4 t := by dsimp only [dats]
theorem after_in5 (c : Dev nD) (t : Fin cfg0.N) : (dats m 0 c).after 5 t = blockAt m c 5 t := by dsimp only [dats]
theorem after_in6 (c : Dev nD) (t : Fin cfg0.N) : (dats m 0 c).after 6 t = blockAt m c 6 t := by dsimp only [dats]
theorem after_memory (c : Dev nD) (t : Fin cfg0.N) : (dats m 0 c).after 7 t
    = newMemory (blockAt m c 0 t) (blockAt m c 1 t) (blockAt m c 2 t) (blockAt m c 3 t) (blockAt m c 4 t) (blockAt m c 5 t) (blockAt m c 6 t) := by
  dsimp only [dats]
theorem after_hidden (c : Dev nD) (t : Fin cfg0.N) : (dats m 0 c).after 8 t
    = newHidden (blockAt m c 0 t) (blockAt m c 1 t) (blockAt m c 2 t) (blockAt m c 3 t) (blockAt m c 4 t) (blockAt m c 5 t) (blockAt m c 6 t) := by
  dsimp only [dats]

theorem found0 (c : Dev nD) (t : Fin cfg0.N) (d) : (dats m 0 c).before 0 t d = blockAt m c 0 t :=
  found0_of m (dats m 0 c) (A_eq m c 0) (after_in0 m c) t d
theorem found1 (c : Dev nD) (t : Fin cfg0.N) (d) : (dats m 0 c).before 1 t d = blockAt m c 1 t :=
  found1_of m (dats m 0 c) (A_eq m c 1) (after_in1 m c) t d
theorem found2 (c : Dev nD) (t : Fin cfg0.N) (d) : (dats m 0 c).before 2 t d = blockAt m c 2 t :=
  found2_of m (dats m 0 c) (A_eq m c 2) (after_in2 m c) t d
theorem found3 (c : Dev nD) (t : Fin cfg0.N) (d) : (dats m 0 c).before 3 t d = blockAt m c 3 t :=
  found3_of m (dats m 0 c) (A_eq m c 3) (after_in3 m c) t d
theorem found4 (c : Dev nD) (t : Fin cfg0.N) (d) : (dats m 0 c).before 4 t d = blockAt m c 4 t :=
  found4_of m (dats m 0 c) (A_eq m c 4) (after_in4 m c) t d
theorem found5 (c : Dev nD) (t : Fin cfg0.N) (d) : (dats m 0 c).before 5 t d = blockAt m c 5 t :=
  found5_of m (dats m 0 c) (A_eq m c 5) (after_in5 m c) t d
theorem found6 (c : Dev nD) (t : Fin cfg0.N) (d) : (dats m 0 c).before 6 t d = blockAt m c 6 t :=
  found6_of m (dats m 0 c) (A_eq m c 6) (after_in6 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so `body_runs` applies; what the region keeps and
    the core's dues pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_memory, after_hidden]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_runs c Set.univ (grid0.coords t) _ _ _ _ _ _ _ _ _ _ _ _ _ _ _ _ _ _
    (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of @main terminates, and every final state has every
    array of the pipeline at what the library computes from the proof data and every other unscoped buffer as the region
    found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := mainUpToRegion m Variants.none) (hA := A_eq m) (hΦ := fun _ _ => rfl)

/-- The three batch arrays are staged inputs: the library keeps an input array as the region found it, and the region
    found it as launched. -/
theorem kept_staged (r : PUnit × MemSt nD τ sig (Elt F)) (h : Pipeline.FramePost cfgs (dats m) 0 (atEntry m) r) (c : Dev nD)
    (w : Fin cfg0.W) (hw : (cfg0.win w).isOut = false) (hb : ∀ y ∈ built, Pipeline.arrRef spec0 w ≠ y) :
    r.2.mem (((cfgs 0).spec w).arr.view.loc (c.tc : Thread nD τ)) = m ((c.tc : Thread nD τ).loc (Pipeline.arrRef spec0 w)) :=
  ((h c).1 w).trans (((dats m 0 c).arrAt_in w hw _).trans ((A_eq m c w).trans (atEntry_of_not_built m c _ hb)))

/-- The twelve weight and bias arguments are no window's array: the region leaves them as it found them, as launched. -/
theorem kept_unstaged (r : PUnit × MemSt nD τ sig (Elt F)) (h : Pipeline.FramePost cfgs (dats m) 0 (atEntry m) r) (c : Dev nD)
    (b : Ref sig .tc) (hs : b.isScoped = false) (ha : ∀ w, (spec0 w).arr.view.ref ≠ b) (hb : ∀ y ∈ built, b ≠ y) :
    r.2.mem ((c.tc : Thread nD τ).loc b) = m ((c.tc : Thread nD τ).loc b) :=
  ((h c).2 b (Pipeline.mem_restRefs_of b hs ha)).trans (atEntry_of_not_built m c b hb)

/-- The frame: the program ends, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨kept_staged m r h c 0 rfl (by decide), kept_staged m r h c 1 rfl (by decide),
      kept_staged m r h c 2 rfl (by decide),
      kept_unstaged m r h c main_arg3 (by decide) (by decide) (by decide), kept_unstaged m r h c main_arg4 (by decide) (by decide) (by decide),
      kept_unstaged m r h c main_arg5 (by decide) (by decide) (by decide), kept_unstaged m r h c main_arg6 (by decide) (by decide) (by decide),
      kept_unstaged m r h c main_arg7 (by decide) (by decide) (by decide), kept_unstaged m r h c main_arg8 (by decide) (by decide) (by decide),
      kept_unstaged m r h c main_arg9 (by decide) (by decide) (by decide), kept_unstaged m r h c main_arg10 (by decide) (by decide) (by decide),
      kept_unstaged m r h c main_arg11 (by decide) (by decide) (by decide), kept_unstaged m r h c main_arg12 (by decide) (by decide) (by decide),
      kept_unstaged m r h c main_arg13 (by decide) (by decide) (by decide), kept_unstaged m r h c main_arg14 (by decide) (by decide) (by decide)⟩)
    (run_main m ρ)

end Cert.KernelIdeal.Region

end
-- ==== Proof.LstmSpec.lean ====
/-
  What both programs compute, as extended-real functions of the fifteen argument arrays.

  With `lin(u, w, b)(r, n) = Σ_k u(r, k) · w(n, k) + b(n)` — row `r` of `u` against row `n` of `w`, one entry of
  `u · wᵀ + b` — and `σ(z) = 1 / (1 + e^(-z))`:

      I = σ(lin(x, Wi, bi) + lin(h, Vi, ci))        F = σ(lin(x, Wf, bf) + lin(h, Vf, cf))
      O = σ(lin(x, Wo, bo) + lin(h, Vo, co))        C = σ(lin(x, Wi, bi) + lin(F ∘ h, Vi, ci))
      memory = F · c + I · C                         hidden = O · tanh(memory)

  (`F ∘ h` is the entrywise product; the candidate `C` reuses the input gate's weights.) Everything here is over the
  extended reals: sums and products of possibly infinite entries, `σ` and `tanh` with their limits at ±∞.
-/
import Idealize.ShloMosaic.PureOps.Ideal
import Idealize.ShloMosaic.Lib.ValueIdx

noncomputable section

namespace Cert.Lstm

open Idealize.ShloMosaic Idealize.ShloMosaic.ValueIdx

/-- An `[a, b]` matrix and a length-`n` vector of extended reals. -/
abbrev Mat (a b : ℕ) : Type := FVec Ideal ⟨2, ![a, b]⟩ .f32
abbrev Row (n : ℕ) : Type := FVec Ideal ⟨1, ![n]⟩ .f32

/-- The float word `0x3F800000` is the real number one. -/
theorem one_word : Ideal.ofBits .f32 0x3F800000#32 = 1 := by
  simp [Ideal.ofBits, Ideal.ieee, -EReal.coe_mul]; norm_num

/-- `1 / (1 + e^(-z))` spelt with the word of one, a sum, an exponential and a quotient, is the logistic function. -/
theorem logistic_spelt (z : EReal) :
    Ideal.div (Ideal.ofBits .f32 0x3F800000#32) (Ideal.ofBits .f32 0x3F800000#32 + Ideal.exp (-z)) = Ideal.logistic z := by
  rw [one_word]; rfl

/-- One entry of `u · wᵀ + b`: row `r` of `u` against row `n` of `w`, plus `b n`. -/
def lin {K : ℕ} (u : Mat 262144 K) (w : Mat 128 K) (b : Row 128) (r : Fin 262144) (n : Fin 128) : EReal :=
  (∑ k : Fin K, u (ix2 r k) * w (ix2 n k)) + b (ix1 n)

/-- A gate: the logistic function of an input-side and a hidden-side affine map. -/
def gate (x : Mat 262144 64) (h : Mat 262144 128) (w : Mat 128 64) (b : Row 128) (v : Mat 128 128) (c : Row 128)
    (r : Fin 262144) (n : Fin 128) : EReal :=
  Ideal.logistic (lin x w b r n + lin h v c r n)

/-- The hidden state scaled entrywise by the forget gate. -/
def forgotten (x : Mat 262144 64) (h : Mat 262144 128) (wf : Mat 128 64) (bf : Row 128) (vf : Mat 128 128) (cf : Row 128) :
    Mat 262144 128 :=
  fun i => gate x h wf bf vf cf ⟨(i 0).val, idx2_lt0 i⟩ ⟨(i 1).val, idx2_lt1 i⟩ * h i

/-- The candidate: the input gate's weights again, the hidden side applied to the forgotten hidden state. -/
def candidate (x : Mat 262144 64) (h : Mat 262144 128) (wi : Mat 128 64) (bi : Row 128) (vi : Mat 128 128) (ci : Row 128)
    (wf : Mat 128 64) (bf : Row 128) (vf : Mat 128 128) (cf : Row 128) (r : Fin 262144) (n : Fin 128) : EReal :=
  Ideal.logistic (lin x wi bi r n + lin (forgotten x h wf bf vf cf) vi ci r n)

/-- The new memory at row `r`, lane `n`. -/
def memory (x : Mat 262144 64) (h c : Mat 262144 128) (wi : Mat 128 64) (bi : Row 128) (vi : Mat 128 128) (ci : Row 128)
    (wf : Mat 128 64) (bf : Row 128) (vf : Mat 128 128) (cf : Row 128) (r : Fin 262144) (n : Fin 128) : EReal :=
  gate x h wf bf vf cf r n * c (ix2 r n) + gate x h wi bi vi ci r n * candidate x h wi bi vi ci wf bf vf cf r n

/-- The new hidden state at row `r`, lane `n`. -/
def hidden (x : Mat 262144 64) (h c : Mat 262144 128) (wi : Mat 128 64) (bi : Row 128) (vi : Mat 128 128) (ci : Row 128)
    (wf : Mat 128 64) (bf : Row 128) (vf : Mat 128 128) (cf : Row 128)
    (wo : Mat 128 64) (bo : Row 128) (vo : Mat 128 128) (co : Row 128) (r : Fin 262144) (n : Fin 128) : EReal :=
  gate x h wo bo vo co r n * Ideal.tanh (memory x h c wi bi vi ci wf bf vf cf r n)

/-- The two results as whole arrays. -/
def memoryArray (x : Mat 262144 64) (h c : Mat 262144 128) (wi : Mat 128 64) (bi : Row 128) (vi : Mat 128 128) (ci : Row 128)
    (wf : Mat 128 64) (bf : Row 128) (vf : Mat 128 128) (cf : Row 128) : Mat 262144 128 :=
  fun i => memory x h c wi bi vi ci wf bf vf cf ⟨(i 0).val, idx2_lt0 i⟩ ⟨(i 1).val, idx2_lt1 i⟩

def hiddenArray (x : Mat 262144 64) (h c : Mat 262144 128) (wi : Mat 128 64) (bi : Row 128) (vi : Mat 128 128) (ci : Row 128)
    (wf : Mat 128 64) (bf : Row 128) (vf : Mat 128 128) (cf : Row 128)
    (wo : Mat 128 64) (bo : Row 128) (vo : Mat 128 128) (co : Row 128) : Mat 262144 128 :=
  fun i => hidden x h c wi bi vi ci wf bf vf cf wo bo vo co ⟨(i 0).val, idx2_lt0 i⟩ ⟨(i 1).val, idx2_lt1 i⟩

end Cert.Lstm

end
-- ==== Proof.LibLanes.lean ====
/-
  Three readings at an index written by its coordinates, at the ideal instance where floats occur, generic in the extents.

  * Three [a, b] matrices joined along the lanes into one [a, c] matrix: lane l of the result, with l = k·b + l' and
    l' below b, is lane l' of piece k (the pieces' lane ranges lie end to end, each of width b).
  * The sum of an [a, b, c] block along its middle axis, read at (p, k): the sum over the middle coordinate j of the
    entries (p, j, k).
  * The product of an [m, k] by a [k, n] matrix accumulated into the zero matrix, read at (r, l): the sum over the
    contracted coordinate q of A(r, q) · B(q, l) — the zero it starts from adds nothing, and what is left is the plain
    product's entry.
-/
import Idealize.ShloMosaic.Lib.Pipeline.Value
import Idealize.ShloMosaic.Lib.ValueIdx
import Idealize.ShloMosaic.Lib.StackMember
import Idealize.ShloMosaic.PureOps.Ideal.Laws

noncomputable section

open scoped BigOperators

namespace Cert.LibLanes

open Idealize.ShloMosaic Idealize.ShloMosaic.ValueIdx

section Join
variable {α : Type}

/-- The three pieces of a lane join as one family indexed by the piece's number. -/
abbrev pieces3 {a b : ℕ} (x0 x1 x2 : (⟨2, ![a, b]⟩ : Shape).Idx → α) : Fin 3 → (⟨2, ![a, b]⟩ : Shape).Idx → α :=
  ![x0, x1, x2]

/-- A coordinate off the joined axis is kept; there is only the row. -/
private theorem row_kept {a b c : ℕ} (r : Fin a) (l : Fin c) (l' : Fin b) :
    ∀ d : Fin (⟨2, ![a, b]⟩ : Shape).rank, d.cast (rfl : (⟨2, ![a, b]⟩ : Shape).rank = (⟨2, ![a, c]⟩ : Shape).rank) ≠ (1 : Fin 2) →
      ((ix2 r l' : (⟨2, ![a, b]⟩ : Shape).Idx) d).val = ((ix2 r l : (⟨2, ![a, c]⟩ : Shape).Idx) (d.cast rfl)).val := fun d hd => by
  match d, hd with
  | ⟨0, _⟩, _ => rfl
  | ⟨1, _⟩, hd => exact absurd rfl hd

/-- THE JOIN READ AT (r, l): piece k at (r, l'), where l = k·b + l'. -/
theorem join3_apply {a b c : ℕ} (x0 x1 x2 : (⟨2, ![a, b]⟩ : Shape).Idx → α)
    (h : Shape.Concatenates (([⟨⟨2, ![a, b]⟩, x0⟩, ⟨⟨2, ![a, b]⟩, x1⟩, ⟨⟨2, ![a, b]⟩, x2⟩] :
      List ((s : Shape) × (s.Idx → α))).map (·.1)) ⟨2, ![a, c]⟩ 1)
    (r : Fin a) (l : Fin c) (k : Fin 3) (l' : Fin b) (hl : k.val * b + l'.val = l.val) :
    concatenate ⟨2, ![a, c]⟩ 1 [⟨⟨2, ![a, b]⟩, x0⟩, ⟨⟨2, ![a, b]⟩, x1⟩, ⟨⟨2, ![a, b]⟩, x2⟩] h (ix2 r l)
      = pieces3 x0 x1 x2 k (ix2 r l') := by
  match k, hl with
  | ⟨0, _⟩, hl =>
    have hl0 : 0 * b + l'.val = l.val := hl
    exact concatenate_apply_piece (1 : Fin 2) _ h (ix2 r l) 0 (by show 0 < 3; omega) ⟨2, ![a, b]⟩ x0 rfl rfl 0 rfl (ix2 r l')
      (row_kept r l l') (by show 0 + l'.val = l.val; omega)
  | ⟨1, _⟩, hl =>
    have hl1 : 1 * b + l'.val = l.val := hl
    exact concatenate_apply_piece (1 : Fin 2) _ h (ix2 r l) 1 (by show 1 < 3; omega) ⟨2, ![a, b]⟩ x1 rfl rfl b (by simp) (ix2 r l')
      (row_kept r l l') (by show b + l'.val = l.val; omega)
  | ⟨2, _⟩, hl =>
    have hl2 : 2 * b + l'.val = l.val := hl
    exact concatenate_apply_piece (1 : Fin 2) _ h (ix2 r l) 2 (by show 2 < 3; omega) ⟨2, ![a, b]⟩ x2 rfl rfl (b + b) (by simp) (ix2 r l')
      (row_kept r l l') (by show b + b + l'.val = l.val; omega)

end Join

/-- THE MIDDLE-AXIS SUM READ AT (p, k): the sum over j of the entries (p, j, k). -/
theorem midSum_apply {a b c : ℕ} (X : FVec Ideal ⟨3, ![a, b, c]⟩ .f32)
    (h : (⟨3, ![a, b, c]⟩ : Shape).Reduces [1] ⟨2, ![a, c]⟩)
    (hφ : FKind.Formats .f32) (hacc : (0x00000000#32 : BitVec 32) = FKind.add.neutral .f32 hφ) (p : Fin a) (k : Fin c) :
    multiReduction .add [1] ⟨2, ![a, c]⟩ X 0x00000000#32 h hφ hacc (ix2 p k) = ∑ j : Fin b, X (ix3 p j k) := by
  refine (Ideal.multiReduction_add_single X _ h hφ hacc (ix2 p k)).trans ?_
  show ∑ j : Fin b, _ = _
  exact Finset.sum_congr rfl fun j _ => congrArg X (funext fun d => Fin.ext (by
    match d with
    | ⟨0, _⟩ => rfl
    | ⟨1, _⟩ => rfl
    | ⟨2, _⟩ => rfl))

/-- THE PRODUCT INTO THE ZERO MATRIX READ AT (r, l): the sum over q of A(r, q) · B(q, l). -/
theorem matmul_zero_apply {m k n : ℕ} {φ₁ φ₂ : FTy} (prec : Option ContractPrecision)
    (A : FVec Ideal ⟨2, ![m, k]⟩ φ₁) (B : FVec Ideal ⟨2, ![k, n]⟩ φ₂) (r : Fin m) (l : Fin n) :
    matmul (F := Ideal) (DotDims.plain m k n) prec A B (constant (F := Ideal) ⟨2, ![m, n]⟩ .f32 0x00000000#32) (ix2 r l)
      = ∑ q : Fin k, A (ix2 r q) * B (ix2 q l) :=
  ((Ideal.matmul_constant_zero_apply (DotDims.plain m k n) prec A B (ix2 r l)).trans
    (Ideal.dotGeneral_apply (DotDims.plain m k n) prec .single A B (ix2 r l)).symm).trans
    (StackMember.dotGeneral_plain_apply prec A B r l)

end Cert.LibLanes

end
-- ==== Proof.LibLaneSlices.lean ====
/-
  Three readings at an index written by its coordinates, generic in the extents and in the element type; the file
  imports only the library.

  * A window of lanes of an [a, n] matrix — the unit-stride slice with offsets (0, o) and sizes (a, m) — read at
    (p, q): the matrix at (p, o + q).
  * Three length-b vectors joined end to end into one length-c vector, read at lane l: with l = k·b + l' and l' below
    b, entry l' of piece k.
  * A length-n vector cast to the one-row matrix [1, n], read at (0, q): the vector's entry q (both have row-major
    position q).
-/
import Idealize.ShloMosaic.Lib.Pipeline.Value
import Idealize.ShloMosaic.Lib.ValueIdx

noncomputable section

namespace Cert.LibLaneSlices

open Idealize.ShloMosaic Idealize.ShloMosaic.ValueIdx

variable {α : Type}

/-- THE LANE WINDOW READ AT (p, q): the matrix at (p, o + q). -/
theorem laneWindow_apply {a n m : ℕ} (o : ℕ) (X : (⟨2, ![a, n]⟩ : Shape).Idx → α)
    (h : (⟨2, ![a, n]⟩ : Shape).Slices ![0, o] ⟨2, ![a, m]⟩) (p : Fin a) (q : Fin m) (hq : o + q.val < n) :
    extractStridedSlice ⟨2, ![a, m]⟩ ![0, o] X h (ix2 p q) = X (ix2 p ⟨o + q.val, hq⟩) :=
  extractStridedSlice_apply _ X h (ix2 p q) (ix2 p ⟨o + q.val, hq⟩) fun ax => match ax with
    | ⟨0, _⟩ => by show p.val = 0 + p.val; omega
    | ⟨1, _⟩ => rfl

/-- The three pieces of a join as one family indexed by the piece's number. -/
abbrev vecs3 {b : ℕ} (x0 x1 x2 : (⟨1, ![b]⟩ : Shape).Idx → α) : Fin 3 → (⟨1, ![b]⟩ : Shape).Idx → α := ![x0, x1, x2]

/-- A rank-one index has no coordinate off its one axis. -/
private theorem none_off_axis {b c : ℕ} (l : Fin c) (l' : Fin b) :
    ∀ d : Fin (⟨1, ![b]⟩ : Shape).rank, d.cast (rfl : (⟨1, ![b]⟩ : Shape).rank = (⟨1, ![c]⟩ : Shape).rank) ≠ (0 : Fin 1) →
      ((ix1 l' : (⟨1, ![b]⟩ : Shape).Idx) d).val = ((ix1 l : (⟨1, ![c]⟩ : Shape).Idx) (d.cast rfl)).val := fun d hd => by
  match d, hd with
  | ⟨0, _⟩, hd => exact absurd rfl hd

/-- THE JOIN OF THREE VECTORS READ AT LANE l: piece k at l', where l = k·b + l'. -/
theorem joinVec3_apply {b c : ℕ} (x0 x1 x2 : (⟨1, ![b]⟩ : Shape).Idx → α)
    (h : Shape.Concatenates (([⟨⟨1, ![b]⟩, x0⟩, ⟨⟨1, ![b]⟩, x1⟩, ⟨⟨1, ![b]⟩, x2⟩] :
      List ((s : Shape) × (s.Idx → α))).map (·.1)) ⟨1, ![c]⟩ 0)
    (l : Fin c) (k : Fin 3) (l' : Fin b) (hl : k.val * b + l'.val = l.val) :
    concatenate ⟨1, ![c]⟩ 0 [⟨⟨1, ![b]⟩, x0⟩, ⟨⟨1, ![b]⟩, x1⟩, ⟨⟨1, ![b]⟩, x2⟩] h (ix1 l) = vecs3 x0 x1 x2 k (ix1 l') := by
  match k, hl with
  | ⟨0, _⟩, hl =>
    have hl0 : 0 * b + l'.val = l.val := hl
    exact concatenate_apply_piece (0 : Fin 1) _ h (ix1 l) 0 (by show 0 < 3; omega) ⟨1, ![b]⟩ x0 rfl rfl 0 rfl (ix1 l')
      (none_off_axis l l') (by show 0 + l'.val = l.val; omega)
  | ⟨1, _⟩, hl =>
    have hl1 : 1 * b + l'.val = l.val := hl
    exact concatenate_apply_piece (0 : Fin 1) _ h (ix1 l) 1 (by show 1 < 3; omega) ⟨1, ![b]⟩ x1 rfl rfl b (by simp) (ix1 l')
      (none_off_axis l l') (by show b + l'.val = l.val; omega)
  | ⟨2, _⟩, hl =>
    have hl2 : 2 * b + l'.val = l.val := hl
    exact concatenate_apply_piece (0 : Fin 1) _ h (ix1 l) 2 (by show 2 < 3; omega) ⟨1, ![b]⟩ x2 rfl rfl (b + b) (by simp) (ix1 l')
      (none_off_axis l l') (by show b + b + l'.val = l.val; omega)

/-- A VECTOR AS ONE ROW, READ AT (0, q): the vector's entry q. -/
theorem rowOfVec_apply {n : ℕ} (v : (⟨1, ![n]⟩ : Shape).Idx → α) (h : (⟨1, ![n]⟩ : Shape).ShapeCasts ⟨2, ![1, n]⟩) (q : Fin n) :
    shapeCast ⟨2, ![1, n]⟩ v h (ix2 (0 : Fin 1) q) = v (ix1 q) :=
  shapeCast_apply v h (ix2 (0 : Fin 1) q) (ix1 q) (by
    rw [Shape.rowMajor_val_one, Shape.rowMajor_val_two]
    show q.val = 0 * n + q.val
    omega)

end Cert.LibLaneSlices

end
-- ==== Proof.BodyValue.lean ====
/-
  What the body computes at one grid point, entry by entry.

  The body is handed a block of 8192 rows of `x`, `h`, `c`, and four small arrays whole: the input-side weights as one
  [64, 384] matrix whose lanes 0…127, 128…255, 256…383 are the transposes of the input, forget and output gates'
  weights, the hidden-side weights likewise as [128, 384], and the two bias triples as [1, 384] rows. Its two wide
  products `x · W + wb` and `h · V + vb` therefore hold, at lane `o + q` (`o` = 0, 128, 256), the affine maps
  `lin(x, w, b)` and `lin(h, v, c)` of the gate whose weights sit at offset `o`; the windows of lanes it cuts out are the
  three gates' arguments; the candidate is the input gate's input side, plus the forgotten hidden state against lanes
  0…127 of `V`, plus lanes 0…127 of `vb` — the specification's `lin(x, Wi, bi) + lin(F ∘ h, Vi, ci)` with the sum
  associated the other way. So at block entry (p, q) the two stored values are `memory` and `hidden` of the
  specification at row `row p`, lane `q`, where `row p` is the block's row `p` in the whole arrays.
-/
import proofs.«100270_j17600775979868_2_alg».proof.Proof.Gen.KernelIdeal.Skeleton
import proofs.«100270_j17600775979868_2_alg».proof.Proof.LstmSpec
import proofs.«100270_j17600775979868_2_alg».proof.Proof.LibLanes
import proofs.«100270_j17600775979868_2_alg».proof.Proof.LibLaneSlices
import Idealize.ShloMosaic.Lib.ValueLayout
import Idealize.ShloMosaic.PureOps.Ideal.Laws

noncomputable section

namespace Cert.KernelIdeal.BodyValue

open Cert.KernelIdeal Cert.KernelIdeal.Gen Cert.Lstm Cert.LibLaneSlices
open Idealize.ShloMosaic Idealize.ShloMosaic.ValueIdx

/-- Lane `o + q` of a 384-lane row, for a 128-lane window at offset `o`. -/
def lane (o : ℕ) (ho : o + 128 ≤ 384) (q : Fin 128) : Fin 384 := ⟨o + q.val, by have := q.isLt; omega⟩

/-! ## The two wide products -/

/-- `x · W + wb` at (p, l). -/
theorem inputSide_apply (v0 : FVec Ideal S8192x64 .f32) (v3 : FVec Ideal S64x384 .f32) (v7 : FVec Ideal S1x384 .f32)
    (p : Fin 8192) (l : Fin 384) :
    k0_pay3 (F := Ideal) v0 v3 v7 (ix2 p l) = (∑ k : Fin 64, v0 (ix2 p k) * v3 (ix2 k l)) + v7 (ix2 (0 : Fin 1) l) := by
  unfold k0_pay3
  simp only [shapeCast_self]
  show matmul dot_S8192x64_S64x384_S8192x384_1_0_0_1_n_n none v0 v3 (constant (F := Ideal) S8192x384 .f32 0x00000000#32) (ix2 p l)
    + broadcastTo S8192x384 v7 broadcasts_S1x384_S8192x384 (ix2 p l) = _
  exact congrArg₂ (· + ·) (Cert.LibLanes.matmul_zero_apply none v0 v3 p l) (broadcastTo_1b_ab_apply v7 _ p l)

/-- `h · V + vb` at (p, l). -/
theorem hiddenSide_apply (v1 : FVec Ideal S8192x128 .f32) (v5 : FVec Ideal S128x384 .f32) (v9 : FVec Ideal S1x384 .f32)
    (p : Fin 8192) (l : Fin 384) :
    k0_pay4 (F := Ideal) v1 v5 v9 (ix2 p l) = (∑ k : Fin 128, v1 (ix2 p k) * v5 (ix2 k l)) + v9 (ix2 (0 : Fin 1) l) := by
  unfold k0_pay4 k0_pay1 k0_pay2
  simp only [shapeCast_self]
  show matmul dot_S8192x128_S128x384_S8192x384_1_0_0_1_n_n none v1 v5 (constant (F := Ideal) S8192x384 .f32 0x00000000#32) (ix2 p l)
    + broadcastTo S8192x384 v9 broadcasts_S1x384_S8192x384 (ix2 p l) = _
  exact congrArg₂ (· + ·) (Cert.LibLanes.matmul_zero_apply none v1 v5 p l) (broadcastTo_1b_ab_apply v9 _ p l)

/-! ## The blocks against the whole arrays -/

/-- What the seven loaded blocks are, entry by entry, in terms of the argument arrays: the three batch blocks are rows
    `row p` of `x`, `h`, `c`; lane `o + n` of the joined weights and biases is entry `n` of the gate at offset `o`. -/
structure Loaded (x : Mat 262144 64) (h c : Mat 262144 128)
    (wi : Mat 128 64) (bi : Row 128) (vi : Mat 128 128) (ci : Row 128)
    (wf : Mat 128 64) (bf : Row 128) (vf : Mat 128 128) (cf : Row 128)
    (wo : Mat 128 64) (bo : Row 128) (vo : Mat 128 128) (co : Row 128)
    (row : Fin 8192 → Fin 262144)
    (v0 : FVec Ideal S8192x64 .f32) (v1 v2 : FVec Ideal S8192x128 .f32) (v3 : FVec Ideal S64x384 .f32)
    (v5 : FVec Ideal S128x384 .f32) (v7 v9 : FVec Ideal S1x384 .f32) : Prop where
  hx : ∀ (p : Fin 8192) (k : Fin 64), v0 (ix2 p k) = x (ix2 (row p) k)
  hh : ∀ (p : Fin 8192) (k : Fin 128), v1 (ix2 p k) = h (ix2 (row p) k)
  hc : ∀ (p : Fin 8192) (q : Fin 128), v2 (ix2 p q) = c (ix2 (row p) q)
  hwi : ∀ (k : Fin 64) (n : Fin 128), v3 (ix2 k (lane 0 (by omega) n)) = wi (ix2 n k)
  hwf : ∀ (k : Fin 64) (n : Fin 128), v3 (ix2 k (lane 128 (by omega) n)) = wf (ix2 n k)
  hwo : ∀ (k : Fin 64) (n : Fin 128), v3 (ix2 k (lane 256 (by omega) n)) = wo (ix2 n k)
  hvi : ∀ (k : Fin 128) (n : Fin 128), v5 (ix2 k (lane 0 (by omega) n)) = vi (ix2 n k)
  hvf : ∀ (k : Fin 128) (n : Fin 128), v5 (ix2 k (lane 128 (by omega) n)) = vf (ix2 n k)
  hvo : ∀ (k : Fin 128) (n : Fin 128), v5 (ix2 k (lane 256 (by omega) n)) = vo (ix2 n k)
  hbi : ∀ n : Fin 128, v7 (ix2 (0 : Fin 1) (lane 0 (by omega) n)) = bi (ix1 n)
  hbf : ∀ n : Fin 128, v7 (ix2 (0 : Fin 1) (lane 128 (by omega) n)) = bf (ix1 n)
  hbo : ∀ n : Fin 128, v7 (ix2 (0 : Fin 1) (lane 256 (by omega) n)) = bo (ix1 n)
  hci : ∀ n : Fin 128, v9 (ix2 (0 : Fin 1) (lane 0 (by omega) n)) = ci (ix1 n)
  hcf : ∀ n : Fin 128, v9 (ix2 (0 : Fin 1) (lane 128 (by omega) n)) = cf (ix1 n)
  hco : ∀ n : Fin 128, v9 (ix2 (0 : Fin 1) (lane 256 (by omega) n)) = co (ix1 n)

section Gates

variable {x : Mat 262144 64} {h : Mat 262144 128} {row : Fin 8192 → Fin 262144}
variable {v0 : FVec Ideal S8192x64 .f32} {v1 : FVec Ideal S8192x128 .f32} {v3 : FVec Ideal S64x384 .f32}
  {v5 : FVec Ideal S128x384 .f32} {v7 v9 : FVec Ideal S1x384 .f32}

/-- A window of lanes of `x · W + wb` at offset `o` is the input-side affine map of the gate whose weights sit there. -/
theorem inputWindow_apply (hx : ∀ (p : Fin 8192) (k : Fin 64), v0 (ix2 p k) = x (ix2 (row p) k))
    (o : ℕ) (ho : o + 128 ≤ 384) (w : Mat 128 64) (b : Row 128)
    (hw : ∀ (k : Fin 64) (n : Fin 128), v3 (ix2 k (lane o ho n)) = w (ix2 n k))
    (hb : ∀ n : Fin 128, v7 (ix2 (0 : Fin 1) (lane o ho n)) = b (ix1 n))
    (hs : S8192x384.Slices ![0, o] S8192x128) (p : Fin 8192) (q : Fin 128) :
    extractStridedSlice S8192x128 ![0, o] (k0_pay3 (F := Ideal) v0 v3 v7) hs (ix2 p q) = lin x w b (row p) q := by
  refine (laneWindow_apply o _ hs p q (by have := q.isLt; omega)).trans ?_
  show k0_pay3 (F := Ideal) v0 v3 v7 (ix2 p (lane o ho q)) = _
  rw [inputSide_apply, hb q]
  unfold lin
  exact congrArg (· + b (ix1 q)) (Finset.sum_congr rfl fun k _ => by rw [hx p k, hw k q])

/-- A window of lanes of `h · V + vb` at offset `o` is the hidden-side affine map of that gate. -/
theorem hiddenWindow_apply (hh : ∀ (p : Fin 8192) (k : Fin 128), v1 (ix2 p k) = h (ix2 (row p) k))
    (o : ℕ) (ho : o + 128 ≤ 384) (v : Mat 128 128) (c : Row 128)
    (hv : ∀ (k : Fin 128) (n : Fin 128), v5 (ix2 k (lane o ho n)) = v (ix2 n k))
    (hc : ∀ n : Fin 128, v9 (ix2 (0 : Fin 1) (lane o ho n)) = c (ix1 n))
    (hs : S8192x384.Slices ![0, o] S8192x128) (p : Fin 8192) (q : Fin 128) :
    extractStridedSlice S8192x128 ![0, o] (k0_pay4 (F := Ideal) v1 v5 v9) hs (ix2 p q) = lin h v c (row p) q := by
  refine (laneWindow_apply o _ hs p q (by have := q.isLt; omega)).trans ?_
  show k0_pay4 (F := Ideal) v1 v5 v9 (ix2 p (lane o ho q)) = _
  rw [hiddenSide_apply, hc q]
  unfold lin
  exact congrArg (· + c (ix1 q)) (Finset.sum_congr rfl fun k _ => by rw [hh p k, hv k q])

/-- The logistic function of the two windows at offset `o` is that gate. -/
theorem gate_apply (hx : ∀ (p : Fin 8192) (k : Fin 64), v0 (ix2 p k) = x (ix2 (row p) k))
    (hh : ∀ (p : Fin 8192) (k : Fin 128), v1 (ix2 p k) = h (ix2 (row p) k))
    (o : ℕ) (ho : o + 128 ≤ 384) (w : Mat 128 64) (b : Row 128) (v : Mat 128 128) (c : Row 128)
    (hw : ∀ (k : Fin 64) (n : Fin 128), v3 (ix2 k (lane o ho n)) = w (ix2 n k))
    (hb : ∀ n : Fin 128, v7 (ix2 (0 : Fin 1) (lane o ho n)) = b (ix1 n))
    (hv : ∀ (k : Fin 128) (n : Fin 128), v5 (ix2 k (lane o ho n)) = v (ix2 n k))
    (hc : ∀ n : Fin 128, v9 (ix2 (0 : Fin 1) (lane o ho n)) = c (ix1 n))
    (hs : S8192x384.Slices ![0, o] S8192x128) (p : Fin 8192) (q : Fin 128) :
    logistic (addf (extractStridedSlice S8192x128 ![0, o] (k0_pay3 (F := Ideal) v0 v3 v7) hs)
      (extractStridedSlice S8192x128 ![0, o] (k0_pay4 (F := Ideal) v1 v5 v9) hs)) (ix2 p q) = gate x h w b v c (row p) q := by
  show Ideal.logistic (extractStridedSlice S8192x128 ![0, o] (k0_pay3 (F := Ideal) v0 v3 v7) hs (ix2 p q)
    + extractStridedSlice S8192x128 ![0, o] (k0_pay4 (F := Ideal) v1 v5 v9) hs (ix2 p q)) = _
  rw [inputWindow_apply hx o ho w b hw hb hs p q, hiddenWindow_apply hh o ho v c hv hc hs p q]
  rfl

end Gates

/-! ## The two stored values -/

section Stored

variable {x : Mat 262144 64} {h c : Mat 262144 128}
  {wi : Mat 128 64} {bi : Row 128} {vi : Mat 128 128} {ci : Row 128}
  {wf : Mat 128 64} {bf : Row 128} {vf : Mat 128 128} {cf : Row 128}
  {wo : Mat 128 64} {bo : Row 128} {vo : Mat 128 128} {co : Row 128}
  {row : Fin 8192 → Fin 262144}
  {v0 : FVec Ideal S8192x64 .f32} {v1 v2 : FVec Ideal S8192x128 .f32} {v3 : FVec Ideal S64x384 .f32}
  {v5 : FVec Ideal S128x384 .f32} {v7 v9 : FVec Ideal S1x384 .f32}

/-- The first stored value at block entry (p, q) is the new memory at row `row p`, lane `q`. -/
theorem memory_apply (L : Loaded x h c wi bi vi ci wf bf vf cf wo bo vo co row v0 v1 v2 v3 v5 v7 v9) (p : Fin 8192) (q : Fin 128) :
    k0_pay5 (F := Ideal) v0 v1 v2 v3 v5 v7 v9 (ix2 p q) = memory x h c wi bi vi ci wf bf vf cf (row p) q := by
  -- the input and forget gates, at any lane of the block's row
  have gI : ∀ n : Fin 128, logistic (addf (extractStridedSlice S8192x128 ![0, 0] (k0_pay3 (F := Ideal) v0 v3 v7) slices_S8192x384_o0_0_S8192x128)
      (extractStridedSlice S8192x128 ![0, 0] (k0_pay4 (F := Ideal) v1 v5 v9) slices_S8192x384_o0_0_S8192x128)) (ix2 p n)
      = gate x h wi bi vi ci (row p) n :=
    fun n => gate_apply L.hx L.hh 0 (by omega) wi bi vi ci L.hwi L.hbi L.hvi L.hci _ p n
  have gF : ∀ n : Fin 128, logistic (addf (extractStridedSlice S8192x128 ![0, 128] (k0_pay3 (F := Ideal) v0 v3 v7) slices_S8192x384_o0_128_S8192x128)
      (extractStridedSlice S8192x128 ![0, 128] (k0_pay4 (F := Ideal) v1 v5 v9) slices_S8192x384_o0_128_S8192x128)) (ix2 p n)
      = gate x h wf bf vf cf (row p) n :=
    fun n => gate_apply L.hx L.hh 128 (by omega) wf bf vf cf L.hwf L.hbf L.hvf L.hcf _ p n
  -- the candidate's three summands
  have sX : extractStridedSlice S8192x128 ![0, 0] (k0_pay3 (F := Ideal) v0 v3 v7) slices_S8192x384_o0_0_S8192x128 (ix2 p q)
      = lin x wi bi (row p) q := inputWindow_apply L.hx 0 (by omega) wi bi L.hwi L.hbi _ p q
  have sV : ∀ k : Fin 128, extractStridedSlice S128x128 ![0, 0] (k0_pay1 (F := Ideal) v5) slices_S128x384_o0_0_S128x128 (ix2 k q) = vi (ix2 q k) := fun k => by
    refine (laneWindow_apply 0 _ slices_S128x384_o0_0_S128x128 k q (by have := q.isLt; omega)).trans ?_
    unfold k0_pay1
    rw [shapeCast_self]
    exact L.hvi k q
  have sB : broadcastTo S8192x128 (extractStridedSlice S1x128 ![0, 0] (k0_pay2 (F := Ideal) v9) slices_S1x384_o0_0_S1x128) broadcasts_S1x128_S8192x128 (ix2 p q)
      = ci (ix1 q) := by
    refine (broadcastTo_1b_ab_apply _ _ p q).trans ?_
    refine (laneWindow_apply 0 _ slices_S1x384_o0_0_S1x128 (0 : Fin 1) q (by have := q.isLt; omega)).trans ?_
    unfold k0_pay2
    rw [shapeCast_self]
    exact L.hci q
  have sM : matmul dot_S8192x128_S128x128_S8192x128_1_0_0_1_n_n none
      (mulf (logistic (addf (extractStridedSlice S8192x128 ![0, 128] (k0_pay3 (F := Ideal) v0 v3 v7) slices_S8192x384_o0_128_S8192x128)
        (extractStridedSlice S8192x128 ![0, 128] (k0_pay4 (F := Ideal) v1 v5 v9) slices_S8192x384_o0_128_S8192x128))) v1)
      (extractStridedSlice S128x128 ![0, 0] (k0_pay1 (F := Ideal) v5) slices_S128x384_o0_0_S128x128)
      (constant (F := Ideal) S8192x128 .f32 0x00000000#32) (ix2 p q)
      = ∑ k : Fin 128, forgotten x h wf bf vf cf (ix2 (row p) k) * vi (ix2 q k) := by
    refine (Cert.LibLanes.matmul_zero_apply none _ _ p q).trans ?_
    refine Finset.sum_congr rfl fun k _ => ?_
    rw [sV k]
    refine congrArg (· * vi (ix2 q k)) ?_
    show (logistic (F := Ideal) _ : FVec Ideal S8192x128 .f32) (ix2 p k) * v1 (ix2 p k) = _
    rw [gF k, L.hh p k]
    rfl
  unfold k0_pay5
  show (logistic (F := Ideal) _ : FVec Ideal S8192x128 .f32) (ix2 p q) * v2 (ix2 p q)
      + (logistic (F := Ideal) _ : FVec Ideal S8192x128 .f32) (ix2 p q) * Ideal.logistic ((extractStridedSlice S8192x128 ![0, 0] (k0_pay3 (F := Ideal) v0 v3 v7) slices_S8192x384_o0_0_S8192x128 (ix2 p q)
          + matmul dot_S8192x128_S128x128_S8192x128_1_0_0_1_n_n none _ _ (constant (F := Ideal) S8192x128 .f32 0x00000000#32) (ix2 p q))
          + broadcastTo S8192x128 _ broadcasts_S1x128_S8192x128 (ix2 p q)) = _
  rw [gF q, gI q, sX, sM, sB, L.hc p q, add_assoc]
  rfl

/-- The second stored value at block entry (p, q) is the new hidden state at row `row p`, lane `q`. -/
theorem hidden_apply (L : Loaded x h c wi bi vi ci wf bf vf cf wo bo vo co row v0 v1 v2 v3 v5 v7 v9) (p : Fin 8192) (q : Fin 128) :
    k0_pay6 (F := Ideal) v0 v1 v2 v3 v5 v7 v9 (ix2 p q) = hidden x h c wi bi vi ci wf bf vf cf wo bo vo co (row p) q := by
  have gO : logistic (addf (extractStridedSlice S8192x128 ![0, 256] (k0_pay3 (F := Ideal) v0 v3 v7) slices_S8192x384_o0_256_S8192x128)
      (extractStridedSlice S8192x128 ![0, 256] (k0_pay4 (F := Ideal) v1 v5 v9) slices_S8192x384_o0_256_S8192x128)) (ix2 p q)
      = gate x h wo bo vo co (row p) q :=
    gate_apply L.hx L.hh 256 (by omega) wo bo vo co L.hwo L.hbo L.hvo L.hco _ p q
  unfold k0_pay6
  show (logistic (F := Ideal) _ : FVec Ideal S8192x128 .f32) (ix2 p q) * Ideal.tanh (k0_pay5 (F := Ideal) v0 v1 v2 v3 v5 v7 v9 (ix2 p q)) = _
  rw [gO, memory_apply L p q]
  rfl

end Stored

end Cert.KernelIdeal.BodyValue

end
-- ==== Proof.LibNary3.lean ====
/-
  A host operation over a literal family of THREE operand references (a three-way `stablehlo.concatenate`, printed
  `nary ![a, b, c] y f`), generic in the signature and the values; the file imports only the library.

  The library's general statement leaves the result as `f (fun k => F ↑(![a, b, c] k))`: under the binder the reference
  `![a, b, c] k` is no literal, so no result lemma rewrites the operands' own contents further. `nary3_result` states the
  same result with each operand's contents at its own reference, `Fin.cons (F ↑a) (Fin.cons (F ↑b) (Fin.cons (F ↑c) _))`,
  and `after_results3` is the library's operation-by-operation rewriting loop with that statement put before the general
  one: what a buffer holds after a line of host operations that contains such joins comes out as a closed term of the
  launch contents.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- The result of a three-operand operation at its own result buffer, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary3

/-- The library's `after_results` with the three-operand statement tried before the general one. -/
macro "after_results3" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result]
               | rw [Idealize.ShloMosaic.StableHlo.binary_result] | rw [Idealize.ShloMosaic.StableHlo.ternary_result]
               | rw [Idealize.ShloMosaic.StableHlo.quaternary_result] | rw [Idealize.ShloMosaic.StableHlo.reshape_result]
               | rw [Cert.LibNary3.nary3_result] | rw [Idealize.ShloMosaic.StableHlo.nary_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.quaternary_result_ne]; rotate_left; decide)
               | (rw [Idealize.ShloMosaic.StableHlo.reshape_result_ne]; rotate_left; decide)
               | (rw [Idealize.ShloMosaic.StableHlo.nary_result_ne]; rotate_left; decide))))

end
-- ==== Proof.KernelValue.lean ====
/-
  From blocks to arrays: what the idealized kernel's two result arrays hold after the run.

  The region finds the three batch arrays as launched, and the four arrays the host operations built as: the three
  input-side (hidden-side) weight matrices transposed and joined along the lanes, and the three input-side
  (hidden-side) bias vectors joined and cast to one row. So at grid point `t` the seven blocks the body loads are rows
  8192·t … 8192·t + 8191 of `x`, `h`, `c`, and — lane 128·g + n of the joined arrays being entry n of gate g — the
  weights and biases of the three gates: exactly what the per-point lemma asks. Point `t` therefore writes back block
  `t` of `memoryArray` and of `hiddenArray`; the 32 blocks cover all 262144 rows (row r is in block r / 8192); hence
  the arrays end at those two functions of the arguments.
-/
import proofs.«100270_j17600775979868_2_alg».proof.Proof.RegionIdeal
import proofs.«100270_j17600775979868_2_alg».proof.Proof.BodyValue
import proofs.«100270_j17600775979868_2_alg».proof.Proof.LibNary3
import Idealize.ShloMosaic.Lib.Pipeline.Value
import Idealize.ShloMosaic.Lib.ValueLayout
import Idealize.ShloMosaic.PureOps.Ideal

noncomputable section

namespace Cert.KernelIdeal.Arrays

open Cert.KernelIdeal Cert.KernelIdeal.Gen Cert.KernelIdeal.Region Cert.KernelIdeal.BodyValue Cert.Lstm
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## What the region finds -/

set_option maxHeartbeats 2000000 in
/-- The joined input-side weights: the three gates' weight matrices transposed, side by side. -/
theorem entry_weightsX (c : Dev nD) : (atEntry m c main_v3 : S64x384.Idx → EReal) =
    concatenate S64x384 1 [⟨S64x128, transpose S64x128 [1, 0] (m ((c : Thread nD τ).loc main_arg3)) transposes_S128x64_S64x128_1_0⟩,
      ⟨S64x128, transpose S64x128 [1, 0] (m ((c : Thread nD τ).loc main_arg7)) transposes_S128x64_S64x128_1_0⟩,
      ⟨S64x128, transpose S64x128 [1, 0] (m ((c : Thread nD τ).loc main_arg11)) transposes_S128x64_S64x128_1_0⟩]
      concatenates_S64x128_S64x128_S64x128_S64x384_d1 := by
  dsimp only [atEntry, hostOps0]
  after_results3
  rfl

set_option maxHeartbeats 2000000 in
/-- The joined hidden-side weights. -/
theorem entry_weightsH (c : Dev nD) : (atEntry m c main_v7 : S128x384.Idx → EReal) =
    concatenate S128x384 1 [⟨S128x128, transpose S128x128 [1, 0] (m ((c : Thread nD τ).loc main_arg5)) transposes_S128x128_S128x128_1_0⟩,
      ⟨S128x128, transpose S128x128 [1, 0] (m ((c : Thread nD τ).loc main_arg9)) transposes_S128x128_S128x128_1_0⟩,
      ⟨S128x128, transpose S128x128 [1, 0] (m ((c : Thread nD τ).loc main_arg13)) transposes_S128x128_S128x128_1_0⟩]
      concatenates_S128x128_S128x128_S128x128_S128x384_d1 := by
  dsimp only [atEntry, hostOps0]
  after_results3
  rfl

set_option maxHeartbeats 2000000 in
/-- The joined input-side biases, as one row. -/
theorem entry_biasX (c : Dev nD) : (atEntry m c main_v9 : S1x384.Idx → EReal) =
    shapeCast S1x384 (concatenate S384 0 [⟨S128, m ((c : Thread nD τ).loc main_arg4)⟩, ⟨S128, m ((c : Thread nD τ).loc main_arg8)⟩,
      ⟨S128, m ((c : Thread nD τ).loc main_arg12)⟩] concatenates_S128_S128_S128_S384_d0) shapeCasts_S384_S1x384 := by
  dsimp only [atEntry, hostOps0]
  after_results3
  rfl

set_option maxHeartbeats 2000000 in
/-- The joined hidden-side biases, as one row. -/
theorem entry_biasH (c : Dev nD) : (atEntry m c main_v11 : S1x384.Idx → EReal) =
    shapeCast S1x384 (concatenate S384 0 [⟨S128, m ((c : Thread nD τ).loc main_arg6)⟩, ⟨S128, m ((c : Thread nD τ).loc main_arg10)⟩,
      ⟨S128, m ((c : Thread nD τ).loc main_arg14)⟩] concatenates_S128_S128_S128_S384_d0) shapeCasts_S384_S1x384 := by
  dsimp only [atEntry, hostOps0]
  after_results3
  rfl

/-! ## The joined arrays at a lane -/

/-- Three [128, K] matrices transposed and joined along the lanes: lane 128·g + n of row k is entry (n, k) of matrix g. -/
theorem joinedWeights_apply {K : ℕ} (A0 A1 A2 : (⟨2, ![128, K]⟩ : Shape).Idx → EReal)
    (ht : (⟨2, ![128, K]⟩ : Shape).Transposes [1, 0] ⟨2, ![K, 128]⟩)
    (hc : Shape.Concatenates (([⟨⟨2, ![K, 128]⟩, transpose ⟨2, ![K, 128]⟩ [1, 0] A0 ht⟩, ⟨⟨2, ![K, 128]⟩, transpose ⟨2, ![K, 128]⟩ [1, 0] A1 ht⟩,
      ⟨⟨2, ![K, 128]⟩, transpose ⟨2, ![K, 128]⟩ [1, 0] A2 ht⟩] : List ((s : Shape) × (s.Idx → EReal))).map (·.1)) ⟨2, ![K, 384]⟩ 1)
    (k : Fin K) (l : Fin 384) (g : Fin 3) (n : Fin 128) (hl : g.val * 128 + n.val = l.val) :
    concatenate ⟨2, ![K, 384]⟩ 1 [⟨⟨2, ![K, 128]⟩, transpose ⟨2, ![K, 128]⟩ [1, 0] A0 ht⟩, ⟨⟨2, ![K, 128]⟩, transpose ⟨2, ![K, 128]⟩ [1, 0] A1 ht⟩,
      ⟨⟨2, ![K, 128]⟩, transpose ⟨2, ![K, 128]⟩ [1, 0] A2 ht⟩] hc (ix2 k l) = (![A0, A1, A2] : Fin 3 → _) g (ix2 n k) := by
  rw [Cert.LibLanes.join3_apply _ _ _ hc k l g n hl]
  match g with
  | ⟨0, _⟩ => exact transpose_ix2_apply A0 ht k n
  | ⟨1, _⟩ => exact transpose_ix2_apply A1 ht k n
  | ⟨2, _⟩ => exact transpose_ix2_apply A2 ht k n

/-- Three length-128 vectors joined and cast to one row: lane 128·g + n is entry n of vector g. -/
theorem joinedBias_apply (b0 b1 b2 : (⟨1, ![128]⟩ : Shape).Idx → EReal)
    (hc : Shape.Concatenates (([⟨⟨1, ![128]⟩, b0⟩, ⟨⟨1, ![128]⟩, b1⟩, ⟨⟨1, ![128]⟩, b2⟩] : List ((s : Shape) × (s.Idx → EReal))).map (·.1)) ⟨1, ![384]⟩ 0)
    (hs : (⟨1, ![384]⟩ : Shape).ShapeCasts ⟨2, ![1, 384]⟩) (l : Fin 384) (g : Fin 3) (n : Fin 128) (hl : g.val * 128 + n.val = l.val) :
    shapeCast ⟨2, ![1, 384]⟩ (concatenate ⟨1, ![384]⟩ 0 [⟨⟨1, ![128]⟩, b0⟩, ⟨⟨1, ![128]⟩, b1⟩, ⟨⟨1, ![128]⟩, b2⟩] hc) hs (ix2 (0 : Fin 1) l)
      = (![b0, b1, b2] : Fin 3 → _) g (ix1 n) :=
  (Cert.LibLaneSlices.rowOfVec_apply _ hs l).trans (Cert.LibLaneSlices.joinVec3_apply b0 b1 b2 hc l g n hl)

/-! ## The blocks at a point -/

/-- The row of the whole arrays that is row `p` of the block at point `t`. -/
def rowAt (t : Fin cfg0.N) (p : Fin 8192) : Fin 262144 :=
  ⟨t.val * 8192 + p.val, by have := t.isLt; have hN : cfg0.N = 32 := N_0; have := p.isLt; omega⟩

/-- The printed index maps, decided over the grid: the batch windows and the two output windows are at block (t, 0),
    the four whole-array windows at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The batch blocks: row `p` of the block is row `rowAt t p` of the array. -/
theorem block_x (c : Dev nD) (t : Fin cfg0.N) (p : Fin 8192) (k : Fin 64) :
    blockAt m c 0 t (ix2 p k) = m ((c : Thread nD τ).loc main_arg0) (ix2 (rowAt t p) k) := by
  obtain ⟨e0, e1, -⟩ := index_facts t
  show atEntry m c main_arg0 (((cfg0.win 0).blk t).view.emb (ix2 p k)) = _
  rw [atEntry_of_not_built m c main_arg0 (by decide)]
  refine congrArg _ (funext fun a => Fin.ext ?_)
  match a with
  | ⟨0, _⟩ => show win0_0.index t (0 : Fin 2) * 8192 + 1 * p.val = t.val * 8192 + p.val; rw [e0]; omega
  | ⟨1, _⟩ => show win0_0.index t (1 : Fin 2) * 64 + 1 * k.val = k.val; rw [e1]; omega

theorem block_h (c : Dev nD) (t : Fin cfg0.N) (p : Fin 8192) (k : Fin 128) :
    blockAt m c 1 t (ix2 p k) = m ((c : Thread nD τ).loc main_arg1) (ix2 (rowAt t p) k) := by
  obtain ⟨-, -, e0, e1, -⟩ := index_facts t
  show atEntry m c main_arg1 (((cfg0.win 1).blk t).view.emb (ix2 p k)) = _
  rw [atEntry_of_not_built m c main_arg1 (by decide)]
  refine congrArg _ (funext fun a => Fin.ext ?_)
  match a with
  | ⟨0, _⟩ => show win0_1.index t (0 : Fin 2) * 8192 + 1 * p.val = t.val * 8192 + p.val; rw [e0]; omega
  | ⟨1, _⟩ => show win0_1.index t (1 : Fin 2) * 128 + 1 * k.val = k.val; rw [e1]; omega

theorem block_c (c : Dev nD) (t : Fin cfg0.N) (p : Fin 8192) (k : Fin 128) :
    blockAt m c 2 t (ix2 p k) = m ((c : Thread nD τ).loc main_arg2) (ix2 (rowAt t p) k) := by
  obtain ⟨-, -, -, -, e0, e1, -⟩ := index_facts t
  show atEntry m c main_arg2 (((cfg0.win 2).blk t).view.emb (ix2 p k)) = _
  rw [atEntry_of_not_built m c main_arg2 (by decide)]
  refine congrArg _ (funext fun a => Fin.ext ?_)
  match a with
  | ⟨0, _⟩ => show win0_2.index t (0 : Fin 2) * 8192 + 1 * p.val = t.val * 8192 + p.val; rw [e0]; omega
  | ⟨1, _⟩ => show win0_2.index t (1 : Fin 2) * 128 + 1 * k.val = k.val; rw [e1]; omega

/-- The four whole-array blocks are the arrays the region found. -/
theorem block_weightsX (c : Dev nD) (t : Fin cfg0.N) (k : Fin 64) (l : Fin 384) :
    blockAt m c 3 t (ix2 k l) = atEntry m c main_v3 (ix2 k l) := by
  obtain ⟨-, -, -, -, -, -, e0, e1, -⟩ := index_facts t
  show atEntry m c main_v3 (((cfg0.win 3).blk t).view.emb (ix2 k l)) = _
  refine congrArg _ (funext fun a => Fin.ext ?_)
  match a with
  | ⟨0, _⟩ => show win0_3.index t (0 : Fin 2) * 64 + 1 * k.val = k.val; rw [e0]; omega
  | ⟨1, _⟩ => show win0_3.index t (1 : Fin 2) * 384 + 1 * l.val = l.val; rw [e1]; omega

theorem block_biasX (c : Dev nD) (t : Fin cfg0.N) (l : Fin 384) :
    blockAt m c 4 t (ix2 (0 : Fin 1) l) = atEntry m c main_v9 (ix2 (0 : Fin 1) l) := by
  obtain ⟨-, -, -, -, -, -, -, -, e0, e1, -⟩ := index_facts t
  show atEntry m c main_v9 (((cfg0.win 4).blk t).view.emb (ix2 (0 : Fin 1) l)) = _
  refine congrArg _ (funext fun a => Fin.ext ?_)
  match a with
  | ⟨0, _⟩ => show win0_4.index t (0 : Fin 2) * 1 + 1 * 0 = 0; rw [e0]
  | ⟨1, _⟩ => show win0_4.index t (1 : Fin 2) * 384 + 1 * l.val = l.val; rw [e1]; omega

theorem block_weightsH (c : Dev nD) (t : Fin cfg0.N) (k : Fin 128) (l : Fin 384) :
    blockAt m c 5 t (ix2 k l) = atEntry m c main_v7 (ix2 k l) := by
  obtain ⟨-, -, -, -, -, -, -, -, -, -, e0, e1, -⟩ := index_facts t
  show atEntry m c main_v7 (((cfg0.win 5).blk t).view.emb (ix2 k l)) = _
  refine congrArg _ (funext fun a => Fin.ext ?_)
  match a with
  | ⟨0, _⟩ => show win0_5.index t (0 : Fin 2) * 128 + 1 * k.val = k.val; rw [e0]; omega
  | ⟨1, _⟩ => show win0_5.index t (1 : Fin 2) * 384 + 1 * l.val = l.val; rw [e1]; omega

theorem block_biasH (c : Dev nD) (t : Fin cfg0.N) (l : Fin 384) :
    blockAt m c 6 t (ix2 (0 : Fin 1) l) = atEntry m c main_v11 (ix2 (0 : Fin 1) l) := by
  obtain ⟨-, -, -, -, -, -, -, -, -, -, -, -, e0, e1, -⟩ := index_facts t
  show atEntry m c main_v11 (((cfg0.win 6).blk t).view.emb (ix2 (0 : Fin 1) l)) = _
  refine congrArg _ (funext fun a => Fin.ext ?_)
  match a with
  | ⟨0, _⟩ => show win0_6.index t (0 : Fin 2) * 1 + 1 * 0 = 0; rw [e0]
  | ⟨1, _⟩ => show win0_6.index t (1 : Fin 2) * 384 + 1 * l.val = l.val; rw [e1]; omega

/-- The seven blocks at point `t` are what the per-point lemma asks of them. -/
theorem loaded (c : Dev nD) (t : Fin cfg0.N) :
    Loaded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      (rowAt t) (blockAt m c 0 t) (blockAt m c 1 t) (blockAt m c 2 t) (blockAt m c 3 t) (blockAt m c 5 t) (blockAt m c 4 t) (blockAt m c 6 t) where
  hx := block_x m c t
  hh := block_h m c t
  hc := block_c m c t
  hwi k n := by rw [block_weightsX, entry_weightsX]; exact joinedWeights_apply _ _ _ _ _ k _ 0 n rfl
  hwf k n := by rw [block_weightsX, entry_weightsX]; exact joinedWeights_apply _ _ _ _ _ k _ 1 n rfl
  hwo k n := by rw [block_weightsX, entry_weightsX]; exact joinedWeights_apply _ _ _ _ _ k _ 2 n rfl
  hvi k n := by rw [block_weightsH, entry_weightsH]; exact joinedWeights_apply _ _ _ _ _ k _ 0 n rfl
  hvf k n := by rw [block_weightsH, entry_weightsH]; exact joinedWeights_apply _ _ _ _ _ k _ 1 n rfl
  hvo k n := by rw [block_weightsH, entry_weightsH]; exact joinedWeights_apply _ _ _ _ _ k _ 2 n rfl
  hbi n := by rw [block_biasX, entry_biasX]; exact joinedBias_apply _ _ _ _ _ _ 0 n rfl
  hbf n := by rw [block_biasX, entry_biasX]; exact joinedBias_apply _ _ _ _ _ _ 1 n rfl
  hbo n := by rw [block_biasX, entry_biasX]; exact joinedBias_apply _ _ _ _ _ _ 2 n rfl
  hci n := by rw [block_biasH, entry_biasH]; exact joinedBias_apply _ _ _ _ _ _ 0 n rfl
  hcf n := by rw [block_biasH, entry_biasH]; exact joinedBias_apply _ _ _ _ _ _ 1 n rfl
  hco n := by rw [block_biasH, entry_biasH]; exact joinedBias_apply _ _ _ _ _ _ 2 n rfl

/-! ## What each point writes back -/

theorem zeros : (![0, 0] : Fin 2 → Nat) = fun _ => 0 := funext fun a => by fin_cases a <;> rfl

/-- An element of an output block at point `t` sits at row `rowAt t p`, lane `q`. -/
theorem out_emb7 (t : Fin cfg0.N) (p : Fin 8192) (q : Fin 128) :
    ((cfg0.win 7).blk t).view.emb (ix2 p q) = ix2 (rowAt t p) q := by
  obtain ⟨-, -, -, -, -, -, -, -, -, -, -, -, -, -, e0, e1, -⟩ := index_facts t
  refine funext fun a => Fin.ext ?_
  match a with
  | ⟨0, _⟩ => show win0_7.index t (0 : Fin 2) * 8192 + 1 * p.val = t.val * 8192 + p.val; rw [e0]; omega
  | ⟨1, _⟩ => show win0_7.index t (1 : Fin 2) * 128 + 1 * q.val = q.val; rw [e1]; omega

theorem out_emb8 (t : Fin cfg0.N) (p : Fin 8192) (q : Fin 128) :
    ((cfg0.win 8).blk t).view.emb (ix2 p q) = ix2 (rowAt t p) q := by
  obtain ⟨-, -, -, -, -, -, -, -, -, -, -, -, -, -, -, -, e0, e1⟩ := index_facts t
  refine funext fun a => Fin.ext ?_
  match a with
  | ⟨0, _⟩ => show win0_8.index t (0 : Fin 2) * 8192 + 1 * p.val = t.val * 8192 + p.val; rw [e0]; omega
  | ⟨1, _⟩ => show win0_8.index t (1 : Fin 2) * 128 + 1 * q.val = q.val; rw [e1]; omega

/-- Point `t` writes back block `t` of the new memory. -/
theorem flushed_memory (c : Dev nD) (t : Fin cfg0.N) :
    (dats m 0 c).flushed 7 t = ((cfg0.win 7).blk t).view.read (Elt Ideal)
      (memoryArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show (cfg0.win 7).cut (grid0.coords t) ((dats m 0 c).after 7 t) = _
  rw [after_memory]
  unfold newMemory
  rw [View.canon_unit_zero zeros]
  simp only [View.ld_unit_zero (S := S8192x64) zeros, View.ld_unit_zero (S := S8192x128) zeros, View.ld_unit_zero (S := S64x384) zeros,
    View.ld_unit_zero (S := S128x384) zeros, View.ld_unit_zero (S := S1x384) zeros]
  refine funext fun (j : S8192x128.Idx) => ?_
  obtain ⟨p, q, rfl⟩ : ∃ (p : Fin 8192) (q : Fin 128), j = ix2 p q := ⟨j 0, j 1, eq_ix2 j⟩
  refine (memory_apply (loaded m c t) p q).trans ?_
  show _ = memoryArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 7).blk t).view.emb (ix2 p q))
  rw [out_emb7]
  rfl

/-- Point `t` writes back block `t` of the new hidden state. -/
theorem flushed_hidden (c : Dev nD) (t : Fin cfg0.N) :
    (dats m 0 c).flushed 8 t = ((cfg0.win 8).blk t).view.read (Elt Ideal)
      (hiddenArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  show (cfg0.win 8).cut (grid0.coords t) ((dats m 0 c).after 8 t) = _
  rw [after_hidden]
  unfold newHidden
  rw [View.canon_unit_zero zeros]
  simp only [View.ld_unit_zero (S := S8192x64) zeros, View.ld_unit_zero (S := S8192x128) zeros, View.ld_unit_zero (S := S64x384) zeros,
    View.ld_unit_zero (S := S128x384) zeros, View.ld_unit_zero (S := S1x384) zeros]
  refine funext fun (j : S8192x128.Idx) => ?_
  obtain ⟨p, q, rfl⟩ : ∃ (p : Fin 8192) (q : Fin 128), j = ix2 p q := ⟨j 0, j 1, eq_ix2 j⟩
  refine (hidden_apply (loaded m c t) p q).trans ?_
  show _ = hiddenArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (((cfg0.win 8).blk t).view.emb (ix2 p q))
  rw [out_emb8]
  rfl

/-! ## The blocks cover the arrays -/

theorem mem_block7 (t : Fin cfg0.N) (i : S262144x128.Idx) :
    i ∈ ((cfg0.win 7).blk t).view.set ↔ ∀ a : Fin 2, win0_7.index t a * S8192x128.size a ≤ (i a).val ∧ (i a).val < win0_7.index t a * S8192x128.size a + S8192x128.size a := by
  show i ∈ ((View.whole main_v12_0).slice (win0_7.rect t)).set ↔ _
  rw [View.set_slice_whole, Rect.mem_set_unit]
  exact Iff.rfl

theorem mem_block8 (t : Fin cfg0.N) (i : S262144x128.Idx) :
    i ∈ ((cfg0.win 8).blk t).view.set ↔ ∀ a : Fin 2, win0_8.index t a * S8192x128.size a ≤ (i a).val ∧ (i a).val < win0_8.index t a * S8192x128.size a + S8192x128.size a := by
  show i ∈ ((View.whole main_v12_1).slice (win0_8.rect t)).set ↔ _
  rw [View.set_slice_whole, Rect.mem_set_unit]
  exact Iff.rfl

/-- Row r of the first result is in the block of point r / 8192. -/
theorem covered7 (i : S262144x128.Idx) : ∃ t : Fin cfg0.N, (cfg0.win 7).flush t = true ∧ i ∈ ((cfg0.win 7).blk t).view.set := by
  have hi0 : (i 0).val < 262144 := (i 0).isLt
  have hi1 : (i 1).val < 128 := (i 1).isLt
  have hN : cfg0.N = 32 := N_0
  have ht : (i 0).val / 8192 < cfg0.N := by rw [hN]; omega
  obtain ⟨-, -, -, -, -, -, -, -, -, -, -, -, -, -, e0, e1, -⟩ := index_facts ⟨(i 0).val / 8192, ht⟩
  refine ⟨⟨(i 0).val / 8192, ht⟩, flush0_7 _, ?_⟩
  rw [mem_block7]
  intro a
  match a with
  | ⟨0, _⟩ =>
    show win0_7.index ⟨(i 0).val / 8192, ht⟩ (0 : Fin 2) * 8192 ≤ (i 0).val ∧ (i 0).val < win0_7.index ⟨(i 0).val / 8192, ht⟩ (0 : Fin 2) * 8192 + 8192
    rw [e0]; show (i 0).val / 8192 * 8192 ≤ (i 0).val ∧ (i 0).val < (i 0).val / 8192 * 8192 + 8192; omega
  | ⟨1, _⟩ =>
    show win0_7.index ⟨(i 0).val / 8192, ht⟩ (1 : Fin 2) * 128 ≤ (i 1).val ∧ (i 1).val < win0_7.index ⟨(i 0).val / 8192, ht⟩ (1 : Fin 2) * 128 + 128
    rw [e1]; omega

/-- Row r of the second result likewise. -/
theorem covered8 (i : S262144x128.Idx) : ∃ t : Fin cfg0.N, (cfg0.win 8).flush t = true ∧ i ∈ ((cfg0.win 8).blk t).view.set := by
  have hi0 : (i 0).val < 262144 := (i 0).isLt
  have hi1 : (i 1).val < 128 := (i 1).isLt
  have hN : cfg0.N = 32 := N_0
  have ht : (i 0).val / 8192 < cfg0.N := by rw [hN]; omega
  obtain ⟨-, -, -, -, -, -, -, -, -, -, -, -, -, -, -, -, e0, e1⟩ := index_facts ⟨(i 0).val / 8192, ht⟩
  refine ⟨⟨(i 0).val / 8192, ht⟩, flush0_8 _, ?_⟩
  rw [mem_block8]
  intro a
  match a with
  | ⟨0, _⟩ =>
    show win0_8.index ⟨(i 0).val / 8192, ht⟩ (0 : Fin 2) * 8192 ≤ (i 0).val ∧ (i 0).val < win0_8.index ⟨(i 0).val / 8192, ht⟩ (0 : Fin 2) * 8192 + 8192
    rw [e0]; show (i 0).val / 8192 * 8192 ≤ (i 0).val ∧ (i 0).val < (i 0).val / 8192 * 8192 + 8192; omega
  | ⟨1, _⟩ =>
    show win0_8.index ⟨(i 0).val / 8192, ht⟩ (1 : Fin 2) * 128 ≤ (i 1).val ∧ (i 1).val < win0_8.index ⟨(i 0).val / 8192, ht⟩ (1 : Fin 2) * 128 + 128
    rw [e1]; omega

/-! ## The two result arrays, and the run -/

theorem final_memory (c : Dev nD) : (dats m 0 c).arrAt 7 cfg0.N = memoryArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 7 _ (fun t _ => flushed_memory m c t) covered7

theorem final_hidden (c : Dev nD) : (dats m 0 c).arrAt 8 cfg0.N = hiddenArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (dats m 0 c).arrAt_eq_of_cover 8 _ (fun t _ => flushed_hidden m c t) covered8

/-- Every weakly fair execution of the idealized kernel ends with the first result at the new memory, the second at the
    new hidden state, and every argument as launched. -/
theorem run : θ_run defs (onTc (τ := τ) (main (F := Ideal))) ⟨m, fun _ => 0, ρ⟩ (fun r => ∀ c : Dev nD,
      r.2.mem ((c.tc : Thread nD τ).loc main_v12_0) = memoryArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v12_1) = hiddenArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1 7).trans (final_memory m c), ((h c).1 8).trans (final_hidden m c),
      kept_staged m r h c 0 rfl (by decide), kept_staged m r h c 1 rfl (by decide), kept_staged m r h c 2 rfl (by decide),
      kept_unstaged m r h c main_arg3 (by decide) (by decide) (by decide), kept_unstaged m r h c main_arg4 (by decide) (by decide) (by decide),
      kept_unstaged m r h c main_arg5 (by decide) (by decide) (by decide), kept_unstaged m r h c main_arg6 (by decide) (by decide) (by decide),
      kept_unstaged m r h c main_arg7 (by decide) (by decide) (by decide), kept_unstaged m r h c main_arg8 (by decide) (by decide) (by decide),
      kept_unstaged m r h c main_arg9 (by decide) (by decide) (by decide), kept_unstaged m r h c main_arg10 (by decide) (by decide) (by decide),
      kept_unstaged m r h c main_arg11 (by decide) (by decide) (by decide), kept_unstaged m r h c main_arg12 (by decide) (by decide) (by decide),
      kept_unstaged m r h c main_arg13 (by decide) (by decide) (by decide), kept_unstaged m r h c main_arg14 (by decide) (by decide) (by decide)⟩)
    (run_main m ρ)

end Cert.KernelIdeal.Arrays

end
-- ==== Proof.ReferenceValue.lean ====
/-
  The reference is the specification: its seventy host operations, read one at a time at an index, are `memoryArray`
  and `hiddenArray` of its arguments. Each affine stage (a `dot_general` contracting the second axis of both operands,
  plus a bias broadcast over the rows) is `lin`; each negate / exponential / one-plus / one-over group is the logistic
  function; the candidate's product is `lin` of the forgotten hidden state.
-/
import proofs.«100270_j17600775979868_2_alg».proof.Proof.Gen.ReferenceIdeal.Read
import proofs.«100270_j17600775979868_2_alg».proof.Proof.LstmSpec

noncomputable section

namespace Cert.ReferenceIdeal.RefValue

open Cert.ReferenceIdeal Cert.ReferenceIdeal.Read Cert.Lstm
open Idealize.ShloMosaic Idealize.ShloMosaic.ValueIdx

/-! ## The affine stages -/

/-- `%3`: the input-side affine map with weights `a3`, bias `a4`. -/
theorem lin_v3 (a0 : Mat 262144 64) (a3 : Mat 128 64) (a4 : Row 128) (r : Fin 262144) (n : Fin 128) :
    val_main_v3 (F := Ideal) a0 a3 a4 (ix2 r n) = lin a0 a3 a4 r n := by
  have el : ∀ k : Fin 64, lidx_main_v0 (ix2 r n) k = ix2 r k := fun k => funext fun a => match a with | ⟨0, _⟩ => rfl | ⟨1, _⟩ => rfl
  have er : ∀ k : Fin 64, ridx_main_v0 (ix2 r n) k = ix2 n k := fun k => funext fun a => match a with | ⟨0, _⟩ => rfl | ⟨1, _⟩ => rfl
  have eb : idx_main_v1 (idx_main_v2 (ix2 r n)) = ix1 n := funext fun a => match a with | ⟨0, _⟩ => rfl
  rw [val_main_v3_apply, val_main_v0_apply, val_main_v2_apply, val_main_v1_apply, eb]
  simp only [el, er]
  rfl

/-- `%18`: the input-side affine map with weights `a7`, bias `a8`. -/
theorem lin_v18 (a0 : Mat 262144 64) (a7 : Mat 128 64) (a8 : Row 128) (r : Fin 262144) (n : Fin 128) :
    val_main_v18 (F := Ideal) a0 a7 a8 (ix2 r n) = lin a0 a7 a8 r n := by
  have el : ∀ k : Fin 64, lidx_main_v15 (ix2 r n) k = ix2 r k := fun k => funext fun a => match a with | ⟨0, _⟩ => rfl | ⟨1, _⟩ => rfl
  have er : ∀ k : Fin 64, ridx_main_v15 (ix2 r n) k = ix2 n k := fun k => funext fun a => match a with | ⟨0, _⟩ => rfl | ⟨1, _⟩ => rfl
  have eb : idx_main_v16 (idx_main_v17 (ix2 r n)) = ix1 n := funext fun a => match a with | ⟨0, _⟩ => rfl
  rw [val_main_v18_apply, val_main_v15_apply, val_main_v17_apply, val_main_v16_apply, eb]
  simp only [el, er]
  rfl

/-- `%33`: the input-side affine map with weights `a11`, bias `a12`. -/
theorem lin_v33 (a0 : Mat 262144 64) (a11 : Mat 128 64) (a12 : Row 128) (r : Fin 262144) (n : Fin 128) :
    val_main_v33 (F := Ideal) a0 a11 a12 (ix2 r n) = lin a0 a11 a12 r n := by
  have el : ∀ k : Fin 64, lidx_main_v30 (ix2 r n) k = ix2 r k := fun k => funext fun a => match a with | ⟨0, _⟩ => rfl | ⟨1, _⟩ => rfl
  have er : ∀ k : Fin 64, ridx_main_v30 (ix2 r n) k = ix2 n k := fun k => funext fun a => match a with | ⟨0, _⟩ => rfl | ⟨1, _⟩ => rfl
  have eb : idx_main_v31 (idx_main_v32 (ix2 r n)) = ix1 n := funext fun a => match a with | ⟨0, _⟩ => rfl
  rw [val_main_v33_apply, val_main_v30_apply, val_main_v32_apply, val_main_v31_apply, eb]
  simp only [el, er]
  rfl

/-- `%7`: the hidden-side affine map with weights `a5`, bias `a6`. -/
theorem lin_v7 (a1 : Mat 262144 128) (a5 : Mat 128 128) (a6 : Row 128) (r : Fin 262144) (n : Fin 128) :
    val_main_v7 (F := Ideal) a1 a5 a6 (ix2 r n) = lin a1 a5 a6 r n := by
  have el : ∀ k : Fin 128, lidx_main_v4 (ix2 r n) k = ix2 r k := fun k => funext fun a => match a with | ⟨0, _⟩ => rfl | ⟨1, _⟩ => rfl
  have er : ∀ k : Fin 128, ridx_main_v4 (ix2 r n) k = ix2 n k := fun k => funext fun a => match a with | ⟨0, _⟩ => rfl | ⟨1, _⟩ => rfl
  have eb : idx_main_v5 (idx_main_v6 (ix2 r n)) = ix1 n := funext fun a => match a with | ⟨0, _⟩ => rfl
  rw [val_main_v7_apply, val_main_v4_apply, val_main_v6_apply, val_main_v5_apply, eb]
  simp only [el, er]
  rfl

/-- `%22`: the hidden-side affine map with weights `a9`, bias `a10`. -/
theorem lin_v22 (a1 : Mat 262144 128) (a9 : Mat 128 128) (a10 : Row 128) (r : Fin 262144) (n : Fin 128) :
    val_main_v22 (F := Ideal) a1 a9 a10 (ix2 r n) = lin a1 a9 a10 r n := by
  have el : ∀ k : Fin 128, lidx_main_v19 (ix2 r n) k = ix2 r k := fun k => funext fun a => match a with | ⟨0, _⟩ => rfl | ⟨1, _⟩ => rfl
  have er : ∀ k : Fin 128, ridx_main_v19 (ix2 r n) k = ix2 n k := fun k => funext fun a => match a with | ⟨0, _⟩ => rfl | ⟨1, _⟩ => rfl
  have eb : idx_main_v20 (idx_main_v21 (ix2 r n)) = ix1 n := funext fun a => match a with | ⟨0, _⟩ => rfl
  rw [val_main_v22_apply, val_main_v19_apply, val_main_v21_apply, val_main_v20_apply, eb]
  simp only [el, er]
  rfl

/-- `%37`: the hidden-side affine map with weights `a13`, bias `a14`. -/
theorem lin_v37 (a1 : Mat 262144 128) (a13 : Mat 128 128) (a14 : Row 128) (r : Fin 262144) (n : Fin 128) :
    val_main_v37 (F := Ideal) a1 a13 a14 (ix2 r n) = lin a1 a13 a14 r n := by
  have el : ∀ k : Fin 128, lidx_main_v34 (ix2 r n) k = ix2 r k := fun k => funext fun a => match a with | ⟨0, _⟩ => rfl | ⟨1, _⟩ => rfl
  have er : ∀ k : Fin 128, ridx_main_v34 (ix2 r n) k = ix2 n k := fun k => funext fun a => match a with | ⟨0, _⟩ => rfl | ⟨1, _⟩ => rfl
  have eb : idx_main_v35 (idx_main_v36 (ix2 r n)) = ix1 n := funext fun a => match a with | ⟨0, _⟩ => rfl
  rw [val_main_v37_apply, val_main_v34_apply, val_main_v36_apply, val_main_v35_apply, eb]
  simp only [el, er]
  rfl

/-! ## The gates -/

/-- `%14`: the input gate. -/
theorem gate_v14 (a0 : Mat 262144 64) (a1 : Mat 262144 128) (a3 : Mat 128 64) (a4 : Row 128) (a5 : Mat 128 128) (a6 : Row 128)
    (r : Fin 262144) (n : Fin 128) : val_main_v14 (F := Ideal) a0 a1 a3 a4 a5 a6 (ix2 r n) = gate a0 a1 a3 a4 a5 a6 r n := by
  rw [val_main_v14_apply, val_main_v13_apply, val_main_cst_0_apply, val_main_v12_apply, val_main_v11_apply, val_main_cst_apply,
    val_main_v10_apply, val_main_v9_apply, val_main_v8_apply, lin_v3, lin_v7]
  exact logistic_spelt _

/-- `%29`: the forget gate. -/
theorem gate_v29 (a0 : Mat 262144 64) (a1 : Mat 262144 128) (a7 : Mat 128 64) (a8 : Row 128) (a9 : Mat 128 128) (a10 : Row 128)
    (r : Fin 262144) (n : Fin 128) : val_main_v29 (F := Ideal) a0 a1 a7 a8 a9 a10 (ix2 r n) = gate a0 a1 a7 a8 a9 a10 r n := by
  rw [val_main_v29_apply, val_main_v28_apply, val_main_cst_2_apply, val_main_v27_apply, val_main_v26_apply, val_main_cst_1_apply,
    val_main_v25_apply, val_main_v24_apply, val_main_v23_apply, lin_v18, lin_v22]
  exact logistic_spelt _

/-- `%44`: the output gate. -/
theorem gate_v44 (a0 : Mat 262144 64) (a1 : Mat 262144 128) (a11 : Mat 128 64) (a12 : Row 128) (a13 : Mat 128 128) (a14 : Row 128)
    (r : Fin 262144) (n : Fin 128) : val_main_v44 (F := Ideal) a0 a1 a11 a12 a13 a14 (ix2 r n) = gate a0 a1 a11 a12 a13 a14 r n := by
  rw [val_main_v44_apply, val_main_v43_apply, val_main_cst_4_apply, val_main_v42_apply, val_main_v41_apply, val_main_cst_3_apply,
    val_main_v40_apply, val_main_v39_apply, val_main_v38_apply, lin_v33, lin_v37]
  exact logistic_spelt _

/-! ## The candidate -/

/-- `%45`: the hidden state scaled by the forget gate. -/
theorem forgotten_v45 (a0 : Mat 262144 64) (a1 : Mat 262144 128) (a7 : Mat 128 64) (a8 : Row 128) (a9 : Mat 128 128) (a10 : Row 128) :
    val_main_v45 (F := Ideal) a0 a1 a7 a8 a9 a10 = forgotten a0 a1 a7 a8 a9 a10 := by
  funext i
  obtain ⟨r, n, rfl⟩ : ∃ (r : Fin 262144) (n : Fin 128), i = ix2 r n := ⟨i 0, i 1, eq_ix2 i⟩
  rw [val_main_v45_apply, gate_v29]
  rfl

/-- `%49`: the hidden-side affine map of the input gate's weights, applied to the forgotten hidden state. -/
theorem lin_v49 (a0 : Mat 262144 64) (a1 : Mat 262144 128) (a5 : Mat 128 128) (a6 : Row 128) (a7 : Mat 128 64) (a8 : Row 128)
    (a9 : Mat 128 128) (a10 : Row 128) (r : Fin 262144) (n : Fin 128) :
    val_main_v49 (F := Ideal) a0 a1 a5 a6 a7 a8 a9 a10 (ix2 r n) = lin (forgotten a0 a1 a7 a8 a9 a10) a5 a6 r n := by
  have el : ∀ k : Fin 128, lidx_main_v46 (ix2 r n) k = ix2 r k := fun k => funext fun a => match a with | ⟨0, _⟩ => rfl | ⟨1, _⟩ => rfl
  have er : ∀ k : Fin 128, ridx_main_v46 (ix2 r n) k = ix2 n k := fun k => funext fun a => match a with | ⟨0, _⟩ => rfl | ⟨1, _⟩ => rfl
  have eb : idx_main_v47 (idx_main_v48 (ix2 r n)) = ix1 n := funext fun a => match a with | ⟨0, _⟩ => rfl
  rw [val_main_v49_apply, val_main_v46_apply, val_main_v48_apply, val_main_v47_apply, eb, forgotten_v45]
  simp only [el, er]
  rfl

/-- `%56`: the candidate. -/
theorem candidate_v56 (a0 : Mat 262144 64) (a1 : Mat 262144 128) (a3 : Mat 128 64) (a4 : Row 128) (a5 : Mat 128 128) (a6 : Row 128)
    (a7 : Mat 128 64) (a8 : Row 128) (a9 : Mat 128 128) (a10 : Row 128) (r : Fin 262144) (n : Fin 128) :
    val_main_v56 (F := Ideal) a0 a1 a3 a4 a5 a6 a7 a8 a9 a10 (ix2 r n) = candidate a0 a1 a3 a4 a5 a6 a7 a8 a9 a10 r n := by
  rw [val_main_v56_apply, val_main_v55_apply, val_main_cst_6_apply, val_main_v54_apply, val_main_v53_apply, val_main_cst_5_apply,
    val_main_v52_apply, val_main_v51_apply, val_main_v50_apply, lin_v3, lin_v49]
  exact logistic_spelt _

/-! ## The two results -/

/-- The reference's first result is the new memory. -/
theorem memory_eq (a0 : Mat 262144 64) (a1 a2 : Mat 262144 128) (a3 : Mat 128 64) (a4 : Row 128) (a5 : Mat 128 128) (a6 : Row 128)
    (a7 : Mat 128 64) (a8 : Row 128) (a9 : Mat 128 128) (a10 : Row 128) :
    val_main_v59 (F := Ideal) a0 a1 a2 a3 a4 a5 a6 a7 a8 a9 a10 = memoryArray a0 a1 a2 a3 a4 a5 a6 a7 a8 a9 a10 := by
  funext i
  obtain ⟨r, n, rfl⟩ : ∃ (r : Fin 262144) (n : Fin 128), i = ix2 r n := ⟨i 0, i 1, eq_ix2 i⟩
  rw [val_main_v59_apply, val_main_v57_apply, val_main_v58_apply, gate_v29, gate_v14, candidate_v56]
  rfl

/-- The reference's second result is the new hidden state. -/
theorem hidden_eq (a0 : Mat 262144 64) (a1 a2 : Mat 262144 128) (a3 : Mat 128 64) (a4 : Row 128) (a5 : Mat 128 128) (a6 : Row 128) (a7 : Mat 128 64) (a8 : Row 128) (a9 : Mat 128 128) (a10 : Row 128) (a11 : Mat 128 64) (a12 : Row 128) (a13 : Mat 128 128) (a14 : Row 128) :
    val_main_v61 (F := Ideal) a0 a1 a2 a3 a4 a5 a6 a7 a8 a9 a10 a11 a12 a13 a14
      = hiddenArray a0 a1 a2 a3 a4 a5 a6 a7 a8 a9 a10 a11 a12 a13 a14 := by
  funext i
  obtain ⟨r, n, rfl⟩ : ∃ (r : Fin 262144) (n : Fin 128), i = ix2 r n := ⟨i 0, i 1, eq_ix2 i⟩
  rw [val_main_v61_apply, val_main_v60_apply, gate_v44, memory_eq]
  rfl

end Cert.ReferenceIdeal.RefValue

end
-- ==== Proof.lean ====
/-
  The certificate of a fused recurrent cell against its plain reference, over the extended reals.

  The cell, for a batch of 262144 rows (x of width 64, hidden state h and memory c of width 128), with
  `lin(u, w, b) = u · wᵀ + b` and `σ` the logistic function:

      I = σ(lin(x, Wi, bi) + lin(h, Vi, ci))      F = σ(lin(x, Wf, bf) + lin(h, Vf, cf))      O = σ(lin(x, Wo, bo) + lin(h, Vo, co))
      C = σ(lin(x, Wi, bi) + lin(F ∘ h, Vi, ci))  memory = F ∘ c + I ∘ C                      hidden = O ∘ tanh(memory)

  The reference computes this with six matrix products against the weights as given. The kernel first joins the
  transposed weights of the three gates side by side (and the biases end to end), then, on blocks of 8192 rows, takes
  two wide products, cuts the three gates' lanes out of each, and forms the candidate from the first window of lanes of
  the hidden-side weights. Over the extended reals the two agree entry by entry: a lane of a wide product is the
  product with that lane's column; joining and cutting are re-indexings; the logistic function spelt as
  `1 / (1 + e^(-z))` on the host is the kernel's one operation; and the candidate's three summands are associated
  differently on the two sides, which addition of extended reals does not see. No finiteness of the inputs is used.

  * frames: each kernel program's host operations write none of the arguments, and its region runs to the end with
    the staged arguments kept (Proof/RegionBits.lean, Proof/RegionIdeal.lean); the reference is a straight line of
    host operations.
  * preserves: the idealization rewrote nothing.
  * algebraic: the kernel's two result arrays are `memoryArray` and `hiddenArray` of the arguments
    (Proof/KernelValue.lean over Proof/BodyValue.lean), and so are the reference's (Proof/ReferenceValue.lean).
-/
import proofs.«100270_j17600775979868_2_alg».proof.Defs
import proofs.«100270_j17600775979868_2_alg».proof.Proof.Gen.Kernel
import proofs.«100270_j17600775979868_2_alg».proof.Proof.Gen.KernelIdeal
import proofs.«100270_j17600775979868_2_alg».proof.Proof.Gen.ReferenceIdeal
import proofs.«100270_j17600775979868_2_alg».proof.Proof.Gen.Pre_finite_inputs
import proofs.«100270_j17600775979868_2_alg».proof.Proof.RegionBits
import proofs.«100270_j17600775979868_2_alg».proof.Proof.RegionIdeal
import proofs.«100270_j17600775979868_2_alg».proof.Proof.KernelValue
import proofs.«100270_j17600775979868_2_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs to its end and leaves its arguments as launched. -/
theorem frame_kernel : Cert.frame_Kernel := fun m ρ _ => Cert.Kernel.Region.frame m ρ

/-- So does the idealized kernel. -/
theorem frame_kernelIdeal : Cert.frame_KernelIdeal := fun m ρ _ => Cert.KernelIdeal.Region.frame m ρ

/-- The reference is a straight line of host operations: its run, with what it says of the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments, the idealized kernel and the idealized reference both end with the new
    memory and the new hidden state of those arguments in their two results. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14⟩ := hagree c
    refine (Cert.ReferenceIdeal.Read.val_main_v59_eq _ _ _ _ _ _ _ _ _ _ _).trans ?_
    refine (Cert.ReferenceIdeal.RefValue.memory_eq _ _ _ _ _ _ _ _ _ _ _).trans ?_
    rw [e0, e1, e2, e3, e4, e5, e6, e7, e8, e9, e10]
  · obtain ⟨e0, e1, e2, e3, e4, e5, e6, e7, e8, e9, e10, e11, e12, e13, e14⟩ := hagree c
    refine (Cert.ReferenceIdeal.Read.val_main_v61_eq m' c).trans ?_
    refine (Cert.ReferenceIdeal.RefValue.hidden_eq _ _ _ _ _ _ _ _ _ _ _ _ _ _ _).trans ?_
    rw [e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
